-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S32x32x4 : Shape := ⟨3, ![32, 32, 4]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S32x32x4 : S_.BroadcastsInDim S32x32x4 (![] : Fin 0 → Fin S32x32x4.rank)
  reducesTo_S32x32x4_S_d0_1_2 : S32x32x4.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S262144x128 .f32) (main_arg1 : FVec F S32x32x4 .f32) (main_arg2 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S32x32x4 .f32 := Host.absf main_arg1
  let main_cst_0 : FVec F S_ .f32 := constant S_ .f32 0x7F800000#32
  let main_v5 : FVec F S32x32x4 .f32 := broadcastInDim S32x32x4 ![] bcast_S_S32x32x4 main_cst_0
  let main_v6 : IVec S32x32x4 1 := cmpf .olt main_v4 main_v5
  let main_c_1 : IVec S_ 1 := constantI S_ 1 1#1
  let main_v7 : IVec S_ 1 := (fun x v => Host.reduce IntOp.andi x v reducesTo_S32x32x4_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S262144x128 : Shape := ⟨2, ![262144, 128]⟩
abbrev S32x32x4 : Shape := ⟨3, ![32, 32, 4]⟩
abbrev S128 : Shape := ⟨1, ![128]⟩
abbrev S32x32x1 : Shape := ⟨3, ![32, 32, 1]⟩
abbrev S32x32 : Shape := ⟨2, ![32, 32]⟩
abbrev S32x32x1x4 : Shape := ⟨4, ![32, 32, 1, 4]⟩
abbrev S32x32x4x4 : Shape := ⟨4, ![32, 32, 4, 4]⟩
abbrev S32x4x32x4 : Shape := ⟨4, ![32, 4, 32, 4]⟩
abbrev S128x128 : Shape := ⟨2, ![128, 128]⟩
abbrev S1x128 : Shape := ⟨2, ![1, 128]⟩
abbrev S8192x128 : Shape := ⟨2, ![8192, 128]⟩

abbrev nBuf : Space → Nat
  | .hbm => 50
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S32x32x4, .f32⟩
  | .hbm, ⟨2, _⟩ => ⟨S128, .f32⟩
  | .hbm, ⟨3, _⟩ => ⟨S32x32x1, .f32⟩
  | .hbm, ⟨4, _⟩ => ⟨S32x32, .f32⟩
  | .hbm, ⟨5, _⟩ => ⟨S32x32x1, .f32⟩
  | .hbm, ⟨6, _⟩ => ⟨S32x32, .f32⟩
  | .hbm, ⟨7, _⟩ => ⟨S32x32x1, .f32⟩
  | .hbm, ⟨8, _⟩ => ⟨S32x32, .f32⟩
  | .hbm, ⟨9, _⟩ => ⟨S32x32x1, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32x32, .f32⟩
  | .hbm, ⟨14, _⟩ => ⟨S32x32, .f32⟩
  | .hbm, ⟨15, _⟩ => ⟨S32x32x1, .f32⟩
  | .hbm, ⟨16, _⟩ => ⟨S32x32x1, .f32⟩
  | .hbm, ⟨17, _⟩ => ⟨S32x32x1, .f32⟩
  | .hbm, ⟨18, _⟩ => ⟨S32x32x1, .f32⟩
  | .hbm, ⟨19, _⟩ => ⟨S32x32x4, .f32⟩
  | .hbm, ⟨20, _⟩ => ⟨S32x32, .f32⟩
  | .hbm, ⟨21, _⟩ => ⟨S32x32, .f32⟩
  | .hbm, ⟨22, _⟩ => ⟨S32x32x1, .f32⟩
  | .hbm, ⟨23, _⟩ => ⟨S32x32x1, .f32⟩
  | .hbm, ⟨24, _⟩ => ⟨S32x32x1, .f32⟩
  | .hbm, ⟨25, _⟩ => ⟨S32x32x1, .f32⟩
  | .hbm, ⟨26, _⟩ => ⟨S32x32x4, .f32⟩
  | .hbm, ⟨27, _⟩ => ⟨S32x32, .f32⟩
  | .hbm, ⟨28, _⟩ => ⟨S32x32, .f32⟩
  | .hbm, ⟨29, _⟩ => ⟨S32x32x1, .f32⟩
  | .hbm, ⟨30, _⟩ => ⟨S32x32x1, .f32⟩
  | .hbm, ⟨31, _⟩ => ⟨S32x32x1, .f32⟩
  | .hbm, ⟨32, _⟩ => ⟨S32x32x1, .f32⟩
  | .hbm, ⟨33, _⟩ => ⟨S32x32x4, .f32⟩
  | .hbm, ⟨34, _⟩ => ⟨S32x32, .f32⟩
  | .hbm, ⟨35, _⟩ => ⟨S32x32, .f32⟩
  | .hbm, ⟨36, _⟩ => ⟨S32x32x1, .f32⟩
  | .hbm, ⟨37, _⟩ => ⟨S32x32x1, .f32⟩
  | .hbm, ⟨38, _⟩ => ⟨S32x32x1, .f32⟩
  | .hbm, ⟨39, _⟩ => ⟨S32x32x1, .f32⟩
  | .hbm, ⟨40, _⟩ => ⟨S32x32x4, .f32⟩
  | .hbm, ⟨41, _⟩ => ⟨S32x32x1x4, .f32⟩
  | .hbm, ⟨42, _⟩ => ⟨S32x32x1x4, .f32⟩
  | .hbm, ⟨43, _⟩ => ⟨S32x32x1x4, .f32⟩
  | .hbm, ⟨44, _⟩ => ⟨S32x32x1x4, .f32⟩
  | .hbm, ⟨45, _⟩ => ⟨S32x32x4x4, .f32⟩
  | .hbm, ⟨46, _⟩ => ⟨S32x4x32x4, .f32⟩
  | .hbm, ⟨47, _⟩ => ⟨S128x128, .f32⟩
  | .hbm, ⟨48, _⟩ => ⟨S1x128, .f32⟩
  | .hbm, ⟨49, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32x32x4_S32x32x1_0_0_0 : S32x32x4.Slices ![0, 0, 0] S32x32x1
  shapeCasts_S32x32x1_S32x32 : S32x32x1.ShapeCasts S32x32
  slices_S32x32x4_S32x32x1_0_0_1 : S32x32x4.Slices ![0, 0, 1] S32x32x1
  slices_S32x32x4_S32x32x1_0_0_2 : S32x32x4.Slices ![0, 0, 2] S32x32x1
  slices_S32x32x4_S32x32x1_0_0_3 : S32x32x4.Slices ![0, 0, 3] S32x32x1
  transposes_S32x32_S32x32_1_0 : S32x32.Transposes [1, 0] S32x32
  bcast_S32x32_S32x32x1_0_1 : S32x32.BroadcastsInDim S32x32x1 (![0, 1] : Fin 2 → Fin S32x32x1.rank)
  concatenates_S32x32x1_S32x32x1_S32x32x1_S32x32x1_S32x32x4_d2 : Shape.Concatenates [S32x32x1, S32x32x1, S32x32x1, S32x32x1] S32x32x4 2
  bcast_S32x32x4_S32x32x1x4_0_1_3 : S32x32x4.BroadcastsInDim S32x32x1x4 (![0, 1, 3] : Fin 3 → Fin S32x32x1x4.rank)
  concatenates_S32x32x1x4_S32x32x1x4_S32x32x1x4_S32x32x1x4_S32x32x4x4_d2 : Shape.Concatenates [S32x32x1x4, S32x32x1x4, S32x32x1x4, S32x32x1x4] S32x32x4x4 2
  transposes_S32x32x4x4_S32x4x32x4_0_2_1_3 : S32x32x4x4.Transposes [0, 2, 1, 3] S32x4x32x4
  shapeCasts_S32x4x32x4_S128x128 : S32x4x32x4.ShapeCasts S128x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S32x32x4 : Shape := ⟨3, ![32, 32, 4]⟩
abbrev S128 : Shape := ⟨1, ![128]⟩
abbrev S262144x32x4 : Shape := ⟨3, ![262144, 32, 4]⟩
abbrev S262144x32x1 : Shape := ⟨3, ![262144, 32, 1]⟩
abbrev S262144x32 : Shape := ⟨2, ![262144, 32]⟩
abbrev S32x32x1 : Shape := ⟨3, ![32, 32, 1]⟩
abbrev S32x32 : Shape := ⟨2, ![32, 32]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S32x32x4, .f32⟩
  | .hbm, ⟨2, _⟩ => ⟨S128, .f32⟩
  | .hbm, ⟨3, _⟩ => ⟨S262144x32x4, .f32⟩
  | .hbm, ⟨4, _⟩ => ⟨S262144x32x1, .f32⟩
  | .hbm, ⟨5, _⟩ => ⟨S262144x32, .f32⟩
  | .hbm, ⟨6, _⟩ => ⟨S262144x32x1, .f32⟩
  | .hbm, ⟨7, _⟩ => ⟨S262144x32, .f32⟩
  | .hbm, ⟨8, _⟩ => ⟨S262144x32x1, .f32⟩
  | .hbm, ⟨9, _⟩ => ⟨S262144x32, .f32⟩
  | .hbm, ⟨10, _⟩ => ⟨S262144x32x1, .f32⟩
  | .hbm, ⟨11, _⟩ => ⟨S262144x32, .f32⟩
  | .hbm, ⟨12, _⟩ => ⟨S32x32x1, .f32⟩
  | .hbm, ⟨13, _⟩ => ⟨S32x32, .f32⟩
  | .hbm, ⟨14, _⟩ => ⟨S32x32x1, .f32⟩
  | .hbm, ⟨15, _⟩ => ⟨S32x32, .f32⟩
  | .hbm, ⟨16, _⟩ => ⟨S32x32x1, .f32⟩
  | .hbm, ⟨17, _⟩ => ⟨S32x32, .f32⟩
  | .hbm, ⟨18, _⟩ => ⟨S32x32x1, .f32⟩
  | .hbm, ⟨19, _⟩ => ⟨S32x32, .f32⟩
  | .hbm, ⟨20, _⟩ => ⟨S262144x32, .f32⟩
  | .hbm, ⟨21, _⟩ => ⟨S262144x32, .f32⟩
  | .hbm, ⟨22, _⟩ => ⟨S262144x32, .f32⟩
  | .hbm, ⟨23, _⟩ => ⟨S262144x32, .f32⟩
  | .hbm, ⟨24, _⟩ => ⟨S262144x32, .f32⟩
  | .hbm, ⟨25, _⟩ => ⟨S262144x32, .f32⟩
  | .hbm, ⟨26, _⟩ => ⟨S262144x32, .f32⟩
  | .hbm, ⟨27, _⟩ => ⟨S262144x32, .f32⟩
  | .hbm, ⟨28, _⟩ => ⟨S262144x32, .f32⟩
  | .hbm, ⟨29, _⟩ => ⟨S262144x32, .f32⟩
  | .hbm, ⟨30, _⟩ => ⟨S262144x32, .f32⟩
  | .hbm, ⟨31, _⟩ => ⟨S262144x32, .f32⟩
  | .hbm, ⟨32, _⟩ => ⟨S262144x32, .f32⟩
  | .hbm, ⟨33, _⟩ => ⟨S262144x32, .f32⟩
  | .hbm, ⟨34, _⟩ => ⟨S262144x32, .f32⟩
  | .hbm, ⟨35, _⟩ => ⟨S262144x32, .f32⟩
  | .hbm, ⟨36, _⟩ => ⟨S262144x32, .f32⟩
  | .hbm, ⟨37, _⟩ => ⟨S262144x32, .f32⟩
  | .hbm, ⟨38, _⟩ => ⟨S262144x32, .f32⟩
  | .hbm, ⟨39, _⟩ => ⟨S262144x32, .f32⟩
  | .hbm, ⟨40, _⟩ => ⟨S262144x32, .f32⟩
  | .hbm, ⟨41, _⟩ => ⟨S262144x32, .f32⟩
  | .hbm, ⟨42, _⟩ => ⟨S262144x32, .f32⟩
  | .hbm, ⟨43, _⟩ => ⟨S262144x32, .f32⟩
  | .hbm, ⟨44, _⟩ => ⟨S262144x32, .f32⟩
  | .hbm, ⟨45, _⟩ => ⟨S262144x32, .f32⟩
  | .hbm, ⟨46, _⟩ => ⟨S262144x32, .f32⟩
  | .hbm, ⟨47, _⟩ => ⟨S262144x32, .f32⟩
  | .hbm, ⟨48, _⟩ => ⟨S262144x32x1, .f32⟩
  | .hbm, ⟨49, _⟩ => ⟨S262144x32x1, .f32⟩
  | .hbm, ⟨50, _⟩ => ⟨S262144x32x1, .f32⟩
  | .hbm, ⟨51, _⟩ => ⟨S262144x32x1, .f32⟩
  | .hbm, ⟨52, _⟩ => ⟨S262144x32x4, .f32⟩
  | .hbm, ⟨53, _⟩ => ⟨S262144x128, .f32⟩
  | .hbm, ⟨54, _⟩ => ⟨S1x128, .f32⟩
  | .hbm, ⟨55, _⟩ => ⟨S262144x128, .f32⟩
  | .hbm, ⟨56, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩

abbrev nD : Nat := 1
abbrev τ : Topo := Topo.v7x

variable {F : FTy → Type} [FloatOps F]

class Facts₀ : Prop where
  shapeCasts_S262144x128_S262144x32x4 : S262144x128.ShapeCasts S262144x32x4
  slices_S262144x32x4_S262144x32x1_0_0_0 : S262144x32x4.Slices ![0, 0, 0] S262144x32x1
  shapeCasts_S262144x32x1_S262144x32 : S262144x32x1.ShapeCasts S262144x32
  slices_S262144x32x4_S262144x32x1_0_0_1 : S262144x32x4.Slices ![0, 0, 1] S262144x32x1
  slices_S262144x32x4_S262144x32x1_0_0_2 : S262144x32x4.Slices ![0, 0, 2] S262144x32x1
  slices_S262144x32x4_S262144x32x1_0_0_3 : S262144x32x4.Slices ![0, 0, 3] S262144x32x1
  slices_S32x32x4_S32x32x1_0_0_0 : S32x32x4.Slices ![0, 0, 0] S32x32x1
  shapeCasts_S32x32x1_S32x32 : S32x32x1.ShapeCasts S32x32
  slices_S32x32x4_S32x32x1_0_0_1 : S32x32x4.Slices ![0, 0, 1] S32x32x1
  slices_S32x32x4_S32x32x1_0_0_2 : S32x32x4.Slices ![0, 0, 2] S32x32x1
  slices_S32x32x4_S32x32x1_0_0_3 : S32x32x4.Slices ![0, 0, 3] S32x32x1
  bcast_S262144x32_S262144x32x1_0_1 : S262144x32.BroadcastsInDim S262144x32x1 (![0, 1] : Fin 2 → Fin S262144x32x1.rank)
  concatenates_S262144x32x1_S262144x32x1_S262144x32x1_S262144x32x1_S262144x32x4_d2 : Shape.Concatenates [S262144x32x1, S262144x32x1, S262144x32x1, S262144x32x1] S262144x32x4 2
  shapeCasts_S262144x32x4_S262144x128 : S262144x32x4.ShapeCasts S262144x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x32_S32x32_S262144x32_1_1_0_0_n_n_wf : DotDims.WF S262144x32 S32x32 S262144x32 [1] [1] [0] [0] [] []

variable [Facts₀]

def dot_S262144x32_S32x32_S262144x32_1_1_0_0_n_n : DotDims S262144x32 S32x32 S262144x32 where
  lhsContracting := [1]
  rhsContracting := [1]
  lhsNonContracting := [0]
  rhsNonContracting := [0]
  lhsBatch := []
  rhsBatch := []
  wf := dot_S262144x32_S32x32_S262144x32_1_1_0_0_n_n_wf

class Facts : Prop extends Facts₀ where

variable [Facts]
-- ==== Proof.KernelLaunched.lean ====
/-
  `Kernel` runs to the end, faults nowhere, and leaves its three argument arrays as launched; and every array its
  one region stages ends at what the region's points left in it.

  The program is forty-six whole-array operations followed by one region over a grid of 32 points. The
  operations read only the weight array and the bias: they cut the weight array into its four component
  planes, negate and transpose them, lay them side by side into a 128 x 128 matrix, and reshape the bias into
  a 1 x 128 row. None of them writes an argument array. At point `t` the region hands the body rows
  `8192 t .. 8192 t + 8191` of `x` as one 8192 x 128 block, the whole matrix and the whole row, and the body
  makes ONE store, covering the 8192 x 128 block of the result: the block of `x` times the matrix, plus the row
  on every row. It keeps nothing from one point to the next. So after the body each input buffer still holds
  its block, and the result buffer holds that single store (`leaves`), whatever it held before.

  All of this is stated for any reading `F` of the floats: nothing here depends on what the arithmetic computes.
-/
import proofs.«119695_j2980707303755_1_alg».proof.Proof.Gen.Kernel.Launch
import proofs.«119695_j2980707303755_1_alg».proof.Proof.Gen.Kernel.Skeleton
import proofs.«119695_j2980707303755_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- What each buffer of core `c` holds when the region is entered: the launch contents pushed through the
    forty-six whole-array operations, in order. -/
abbrev V (c : Dev nD) (b : Ref sig .tc) : Buf (Elt F) ((c : Thread nD τ).loc b) :=
  StableHlo.after (List.flatten [hostOps0]) (fun b => m (c, b)) b

/-- None of the operations allocates. -/
theorem hostOps0_fresh : (hostOps0 : List (HloOp τ sig (Elt F))).Forall fun op => op.fresh = ∅ := by
  simp only [List.Forall]; repeat' constructor

/-- The program is those operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub
    hostOps0_fresh main_chain

/-- No operation writes `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes,
      Finset.mem_singleton]
    repeat' apply And.intro
    all_goals exact StableHlo.devRef_ne_of_ne (by decide)))

/-- No operation writes the weight array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes,
      Finset.mem_singleton]
    repeat' apply And.intro
    all_goals exact StableHlo.devRef_ne_of_ne (by decide)))

/-- No operation writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes,
      Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The block of `x` is in its buffer at every point: it is fetched at every point. -/
theorem found0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The matrix is fetched at the first point only, and its block never moves: it is in its buffer at every point. -/
theorem found1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-- So is the bias row. -/
theorem found2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

/-! ## What the body leaves -/

abbrev rX : Rect S8192x128 := Rect.unit (s := S8192x128) ![0, 0] S8192x128.size inb_S8192x128_S8192x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The result buffer after the body, from the three input blocks: one store, of the block of `x` times the
    matrix plus the row, through the rectangle that is the whole buffer. -/
def leaves (x0 : Vec F S8192x128 .f32) (x1 : Vec F S128x128 .f32) (x2 : Vec F S1x128 .f32) : Vec F S8192x128 .f32 :=
  View.canon [⟨rX, k0_pay1 (View.ld x0 rX) (View.ld x1 rW) (View.ld x2 rB)⟩]

/-- That one rectangle covers the buffer. -/
theorem covered (p0 : Vec F S8192x128 .f32) (y : S8192x128.Idx) :
    ∃ pc ∈ ([⟨rX, p0⟩] : List (View.Piece (Elt F) S8192x128 .f32)), y ∈ pc.1.set :=
  View.cover_of_tiled [⟨rX, p0⟩] S8192x128.size (by rfl) y

set_option maxHeartbeats 1000000 in
/-- The body on whole buffers, the three inputs' at contents `x0 x1 x2` and the result's at anything, ends with the
    inputs' as they were and the result's at `leaves x0 x1 x2`: three loads, a load of the result buffer whose value
    is not used, and the one covering store. -/
theorem sound_kernel (c : Dev nD) (E : Set ℕ) (i : grid0.Coords)
    (arg1 : Memref sig .tc .vmem S8192x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S8192x128 .f32) (harg4 : arg4.IsWhole)
    (x0 : Vec F S8192x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (leaves x0 x1 x2)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covered _)

/-! ## The region's proof data -/

/-- On core `c`: the arrays as the region finds them; after the body at point `t` each input buffer at its block
    and the result buffer at `leaves` of the three blocks; nothing carried, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leaves (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = leaves (iblk m c 0 t) (iblk m c 1 t) (iblk m c 2 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d

/-! ## The body at a point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution terminates, faults nowhere, and ends with each
    staged array at what the points left in it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The three argument arrays end as launched: `x` is a staged input, which the region only reads; the weight array
    and the bias are staged by no window, and no operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 0).trans (((dats m 0 c).arrAt_in 0 rfl _).trans (A_eq m c 0))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩)
    (run_main m ρ)

end Cert.Kernel.Launched

end
-- ==== Proof.KernelIdealLaunched.lean ====
/-
  `KernelIdeal` runs to the end, faults nowhere, and leaves its three argument arrays as launched; and every array its
  one region stages ends at what the region's points left in it.

  The program is forty-six whole-array operations followed by one region over a grid of 32 points. The
  operations read only the weight array and the bias: they cut the weight array into its four component
  planes, negate and transpose them, lay them side by side into a 128 x 128 matrix, and reshape the bias into
  a 1 x 128 row. None of them writes an argument array. At point `t` the region hands the body rows
  `8192 t .. 8192 t + 8191` of `x` as one 8192 x 128 block, the whole matrix and the whole row, and the body
  makes ONE store, covering the 8192 x 128 block of the result: the block of `x` times the matrix, plus the row
  on every row. It keeps nothing from one point to the next. So after the body each input buffer still holds
  its block, and the result buffer holds that single store (`leaves`), whatever it held before.

  All of this is stated for any reading `F` of the floats: nothing here depends on what the arithmetic computes.
-/
import proofs.«119695_j2980707303755_1_alg».proof.Proof.Gen.KernelIdeal.Launch
import proofs.«119695_j2980707303755_1_alg».proof.Proof.Gen.KernelIdeal.Skeleton
import proofs.«119695_j2980707303755_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- What each buffer of core `c` holds when the region is entered: the launch contents pushed through the
    forty-six whole-array operations, in order. -/
abbrev V (c : Dev nD) (b : Ref sig .tc) : Buf (Elt F) ((c : Thread nD τ).loc b) :=
  StableHlo.after (List.flatten [hostOps0]) (fun b => m (c, b)) b

/-- None of the operations allocates. -/
theorem hostOps0_fresh : (hostOps0 : List (HloOp τ sig (Elt F))).Forall fun op => op.fresh = ∅ := by
  simp only [List.Forall]; repeat' constructor

/-- The program is those operations and then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub
    hostOps0_fresh main_chain

/-- No operation writes `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes,
      Finset.mem_singleton]
    repeat' apply And.intro
    all_goals exact StableHlo.devRef_ne_of_ne (by decide)))

/-- No operation writes the weight array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes,
      Finset.mem_singleton]
    repeat' apply And.intro
    all_goals exact StableHlo.devRef_ne_of_ne (by decide)))

/-- No operation writes the bias. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes,
      Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The block of `x` is in its buffer at every point: it is fetched at every point. -/
theorem found0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The matrix is fetched at the first point only, and its block never moves: it is in its buffer at every point. -/
theorem found1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-- So is the bias row. -/
theorem found2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

/-! ## What the body leaves -/

abbrev rX : Rect S8192x128 := Rect.unit (s := S8192x128) ![0, 0] S8192x128.size inb_S8192x128_S8192x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The result buffer after the body, from the three input blocks: one store, of the block of `x` times the
    matrix plus the row, through the rectangle that is the whole buffer. -/
def leaves (x0 : Vec F S8192x128 .f32) (x1 : Vec F S128x128 .f32) (x2 : Vec F S1x128 .f32) : Vec F S8192x128 .f32 :=
  View.canon [⟨rX, k0_pay1 (View.ld x0 rX) (View.ld x1 rW) (View.ld x2 rB)⟩]

/-- That one rectangle covers the buffer. -/
theorem covered (p0 : Vec F S8192x128 .f32) (y : S8192x128.Idx) :
    ∃ pc ∈ ([⟨rX, p0⟩] : List (View.Piece (Elt F) S8192x128 .f32)), y ∈ pc.1.set :=
  View.cover_of_tiled [⟨rX, p0⟩] S8192x128.size (by rfl) y

set_option maxHeartbeats 1000000 in
/-- The body on whole buffers, the three inputs' at contents `x0 x1 x2` and the result's at anything, ends with the
    inputs' as they were and the result's at `leaves x0 x1 x2`: three loads, a load of the result buffer whose value
    is not used, and the one covering store. -/
theorem sound_kernel (c : Dev nD) (E : Set ℕ) (i : grid0.Coords)
    (arg1 : Memref sig .tc .vmem S8192x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S8192x128 .f32) (harg4 : arg4.IsWhole)
    (x0 : Vec F S8192x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (leaves x0 x1 x2)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covered _)

/-! ## The region's proof data -/

/-- On core `c`: the arrays as the region finds them; after the body at point `t` each input buffer at its block
    and the result buffer at `leaves` of the three blocks; nothing carried, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leaves (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = leaves (iblk m c 0 t) (iblk m c 1 t) (iblk m c 2 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d

/-! ## The body at a point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution terminates, faults nowhere, and ends with each
    staged array at what the points left in it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The three argument arrays end as launched: `x` is a staged input, which the region only reads; the weight array
    and the bias are staged by no window, and no operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 0).trans (((dats m 0 c).arrAt_in 0 rfl _).trans (A_eq m c 0))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩)
    (run_main m ρ)

end Cert.KernelIdeal.Launched

end
-- ==== Proof.QuatAlgebra.lean ====
/-
  Sums over 128 = 32 * 4 positions taken four at a time, and the four component laws of a quaternion product
  summed over 32 quaternions.

  A row of 128 numbers is read as 32 quaternions: position `4 n + c` is component `c` (real, i, j, k for
  c = 0, 1, 2, 3) of quaternion `n`. Multiplying a quaternion `a` on the right by a quaternion `w` gives

      real   a0 w0 - a1 w1 - a2 w2 - a3 w3
      i      a0 w1 + a1 w0 + a2 w3 - a3 w2
      j      a0 w2 - a1 w3 + a2 w0 + a3 w1
      k      a0 w3 + a1 w2 - a2 w1 + a3 w0

  Each component of the sum over `n` of such products can be reached in two orders: add the four terms of one
  quaternion and then sum over `n` (one long sum over the 128 positions), or sum each of the four kinds of term
  over `n` separately and then combine the four sums. For real numbers the two agree: a sum of sums and
  differences is the sum and difference of the sums. On the extended reals that law fails when an infinite term
  meets its opposite, so it is stated for real numbers seen as extended reals.
-/
import Idealize.ShloMosaic.PureOps.Ideal
import Mathlib.Algebra.BigOperators.Fin
import Mathlib.Logic.Equiv.Fin.Basic

noncomputable section

namespace Cert.Quat

/-- Position `4 n + c` of 128: component `c` of quaternion `n`. -/
def q4 (n : Fin 32) (c : Fin 4) : Fin 128 := ⟨4 * n.val + c.val, by omega⟩

@[simp] theorem q4_val (n : Fin 32) (c : Fin 4) : (q4 n c).val = 4 * n.val + c.val := rfl

/-- A sum over the 128 positions is the sum over the 32 quaternions of the sum over their 4 components. -/
theorem sum_q4 {M : Type} [AddCommMonoid M] (f : Fin 128 → M) :
    ∑ k : Fin 128, f k = ∑ n : Fin 32, ∑ c : Fin 4, f (q4 n c) := by
  have e : ∑ k : Fin 128, f k = ∑ p : Fin 32 × Fin 4, f (q4 p.1 p.2) := by
    rw [← Equiv.sum_comp (finProdFinEquiv (m := 32) (n := 4)) f]
    refine Finset.sum_congr rfl fun p _ => congrArg f (Fin.ext ?_)
    show p.2.val + 4 * p.1.val = 4 * p.1.val + p.2.val
    omega
  rw [e, Fintype.sum_prod_type]

/-- A finite sum of real numbers, seen as an extended real, is the sum of the numbers seen as extended reals. -/
@[norm_cast] theorem coe_fsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (a0 a1 a2 a3 w0 w1 w2 w3 : Fin 32 → ℝ)

/-- The real component. -/
theorem comp_real :
    ∑ n, ((a0 n : EReal) * (w0 n : EReal) + (a1 n : EReal) * -(w1 n : EReal) + (a2 n : EReal) * -(w2 n : EReal)
        + (a3 n : EReal) * -(w3 n : EReal))
      = ∑ n, (a0 n : EReal) * (w0 n : EReal) - ∑ n, (a1 n : EReal) * (w1 n : EReal)
        - ∑ n, (a2 n : EReal) * (w2 n : EReal) - ∑ n, (a3 n : EReal) * (w3 n : EReal) := by
  have h : ∑ n, (a0 n * w0 n + a1 n * -(w1 n) + a2 n * -(w2 n) + a3 n * -(w3 n))
      = ∑ n, a0 n * w0 n - ∑ n, a1 n * w1 n - ∑ n, a2 n * w2 n - ∑ n, a3 n * w3 n := by
    simp only [mul_neg, Finset.sum_add_distrib, Finset.sum_neg_distrib]; ring
  exact_mod_cast h

/-- The i component. -/
theorem comp_i :
    ∑ n, ((a0 n : EReal) * (w1 n : EReal) + (a1 n : EReal) * (w0 n : EReal) + (a2 n : EReal) * (w3 n : EReal)
        + (a3 n : EReal) * -(w2 n : EReal))
      = ∑ n, (a0 n : EReal) * (w1 n : EReal) + ∑ n, (a1 n : EReal) * (w0 n : EReal)
        + ∑ n, (a2 n : EReal) * (w3 n : EReal) - ∑ n, (a3 n : EReal) * (w2 n : EReal) := by
  have h : ∑ n, (a0 n * w1 n + a1 n * w0 n + a2 n * w3 n + a3 n * -(w2 n))
      = ∑ n, a0 n * w1 n + ∑ n, a1 n * w0 n + ∑ n, a2 n * w3 n - ∑ n, a3 n * w2 n := by
    simp only [mul_neg, Finset.sum_add_distrib, Finset.sum_neg_distrib]; ring
  exact_mod_cast h

/-- The j component. -/
theorem comp_j :
    ∑ n, ((a0 n : EReal) * (w2 n : EReal) + (a1 n : EReal) * -(w3 n : EReal) + (a2 n : EReal) * (w0 n : EReal)
        + (a3 n : EReal) * (w1 n : EReal))
      = ∑ n, (a0 n : EReal) * (w2 n : EReal) - ∑ n, (a1 n : EReal) * (w3 n : EReal)
        + ∑ n, (a2 n : EReal) * (w0 n : EReal) + ∑ n, (a3 n : EReal) * (w1 n : EReal) := by
  have h : ∑ n, (a0 n * w2 n + a1 n * -(w3 n) + a2 n * w0 n + a3 n * w1 n)
      = ∑ n, a0 n * w2 n - ∑ n, a1 n * w3 n + ∑ n, a2 n * w0 n + ∑ n, a3 n * w1 n := by
    simp only [mul_neg, Finset.sum_add_distrib, Finset.sum_neg_distrib]; ring
  exact_mod_cast h

/-- The k component. -/
theorem comp_k :
    ∑ n, ((a0 n : EReal) * (w3 n : EReal) + (a1 n : EReal) * (w2 n : EReal) + (a2 n : EReal) * -(w1 n : EReal)
        + (a3 n : EReal) * (w0 n : EReal))
      = ∑ n, (a0 n : EReal) * (w3 n : EReal) + ∑ n, (a1 n : EReal) * (w2 n : EReal)
        - ∑ n, (a2 n : EReal) * (w1 n : EReal) + ∑ n, (a3 n : EReal) * (w0 n : EReal) := by
  have h : ∑ n, (a0 n * w3 n + a1 n * w2 n + a2 n * -(w1 n) + a3 n * w0 n)
      = ∑ n, a0 n * w3 n + ∑ n, a1 n * w2 n - ∑ n, a2 n * w1 n + ∑ n, a3 n * w0 n := by
    simp only [mul_neg, Finset.sum_add_distrib, Finset.sum_neg_distrib]; ring
  exact_mod_cast h

end Cert.Quat

end
-- ==== Proof.KernelWeights.lean ====
/-
  The 128 x 128 matrix the region is handed, entry by entry.

  The weight array `w` has shape [32, 32, 4]: `w (o, n, p)` is component `p` of the quaternion weight from input
  quaternion `n` to output quaternion `o`. The program cuts it into its four component planes, transposes each
  (so a plane is indexed (n, o)), and builds four [32, 32, 4] arrays, one per INPUT component: array `cin` holds at
  (n, o, cout) the coefficient of input component `cin` in output component `cout` of the product by `w (o, n, .)`,

      cin = 0 :   w0   w1   w2   w3
      cin = 1 :  -w1   w0  -w3   w2
      cin = 2 :  -w2   w3   w0  -w1
      cin = 3 :  -w3  -w2   w1   w0

  It stacks the four along a new axis, (n, o, cin, cout), swaps the two middle axes, (n, cin, o, cout), and reads
  the result row-major as a 128 x 128 matrix: row `4 n + cin`, column `4 o + cout`. So the entry of the matrix at
  (4 n + cin, 4 o + cout) is the entry (cin, cout) of the table above at `w (o, n, .)`.
-/
import proofs.«119695_j2980707303755_1_alg».proof.Proof.Gen.KernelIdeal
import proofs.«119695_j2980707303755_1_alg».proof.Proof.QuatAlgebra
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.ValueIdx Cert.Quat

/-! ## One component plane, transposed -/

/-- Slice the weight array at the offsets `off` to a [32, 32, 1] array, drop the unit axis, transpose. -/
def planeT (w : FVec Ideal S32x32x4 .f32) (off : Fin 3 → Nat) (h : S32x32x4.Slices off S32x32x1) : FVec Ideal S32x32 .f32 :=
  transpose S32x32 [1, 0] (shapeCast S32x32 (extractStridedSlice S32x32x1 off w h) shapeCasts_S32x32x1_S32x32)
    transposes_S32x32_S32x32_1_0

/-- At offsets (0, 0, p) its entry (n, o) is `w (o, n, p)`. -/
theorem planeT_apply (w : FVec Ideal S32x32x4 .f32) (p : Nat) (hp : p < 4) (h : S32x32x4.Slices ![0, 0, p] S32x32x1)
    (n o : Fin 32) : planeT w ![0, 0, p] h (ix2 n o) = w (ix3 o n ⟨p, hp⟩) := by
  unfold planeT
  rw [transpose_apply [1, 0] _ transposes_S32x32_S32x32_1_0 (ix2 n o) (ix2 o n)
        (fun b => match b with | ⟨0, _⟩ => rfl | ⟨1, _⟩ => rfl),
      shapeCast_apply _ shapeCasts_S32x32x1_S32x32 (ix2 o n) (ix3 o n (0 : Fin 1))
        (by rewrite [Shape.rowMajor_val_three, Shape.rowMajor_val_two]
            show (o.val * 32 + n.val) * 1 + 0 = o.val * 32 + n.val; omega)]
  exact extractStridedSlice_apply ![0, 0, p] w h (ix3 o n (0 : Fin 1)) (ix3 o n ⟨p, hp⟩) (fun a => match a with
    | ⟨0, _⟩ => by show o.val = 0 + o.val; omega
    | ⟨1, _⟩ => by show n.val = 0 + n.val; omega
    | ⟨2, _⟩ => by show p = p + 0; omega)

variable (w : FVec Ideal S32x32x4 .f32)

def plane0 : FVec Ideal S32x32 .f32 := planeT w ![0, 0, 0] slices_S32x32x4_S32x32x1_0_0_0
def plane1 : FVec Ideal S32x32 .f32 := planeT w ![0, 0, 1] slices_S32x32x4_S32x32x1_0_0_1
def plane2 : FVec Ideal S32x32 .f32 := planeT w ![0, 0, 2] slices_S32x32x4_S32x32x1_0_0_2
def plane3 : FVec Ideal S32x32 .f32 := planeT w ![0, 0, 3] slices_S32x32x4_S32x32x1_0_0_3

theorem plane0_apply (n o : Fin 32) : plane0 w (ix2 n o) = w (ix3 o n 0) := planeT_apply w 0 (by decide) _ n o
theorem plane1_apply (n o : Fin 32) : plane1 w (ix2 n o) = w (ix3 o n 1) := planeT_apply w 1 (by decide) _ n o
theorem plane2_apply (n o : Fin 32) : plane2 w (ix2 n o) = w (ix3 o n 2) := planeT_apply w 2 (by decide) _ n o
theorem plane3_apply (n o : Fin 32) : plane3 w (ix2 n o) = w (ix3 o n 3) := planeT_apply w 3 (by decide) _ n o

/-- Negating a plane negates every entry. -/
theorem hostNegf_apply (y : FVec Ideal S32x32 .f32) (i : S32x32.Idx) : Host.negf y i = -(y i) := rfl

/-! ## A plane as a [32, 32, 1] array, and four of them side by side -/

def col (y : FVec Ideal S32x32 .f32) : FVec Ideal S32x32x1 .f32 :=
  broadcastInDim S32x32x1 ![0, 1] bcast_S32x32_S32x32x1_0_1 y

theorem col_apply (y : FVec Ideal S32x32 .f32) (n o : Fin 32) (z : Fin 1) : col y (ix3 n o z) = y (ix2 n o) := by
  unfold col
  exact broadcastInDim_apply _ bcast_S32x32_S32x32x1_0_1 y (ix3 n o z) (ix2 n o) (fun a => match a with
    | ⟨0, _⟩ => by show n.val = if (32 : Nat) = 1 then 0 else n.val; rw [if_neg (by decide)]
    | ⟨1, _⟩ => by show o.val = if (32 : Nat) = 1 then 0 else o.val; rw [if_neg (by decide)])

/-- Four [32, 32, 1] arrays joined along the last axis. -/
def row4 (p0 p1 p2 p3 : FVec Ideal S32x32x1 .f32) : FVec Ideal S32x32x4 .f32 :=
  concatenate S32x32x4 2 [⟨S32x32x1, p0⟩, ⟨S32x32x1, p1⟩, ⟨S32x32x1, p2⟩, ⟨S32x32x1, p3⟩]
    concatenates_S32x32x1_S32x32x1_S32x32x1_S32x32x1_S32x32x4_d2

/-- Its entry (n, o, c) is piece `c` at (n, o, 0). -/
theorem row4_apply (p0 p1 p2 p3 : FVec Ideal S32x32x1 .f32) (n o : Fin 32) (c : Fin 4) :
    row4 p0 p1 p2 p3 (ix3 n o c) = (![p0, p1, p2, p3] c) (ix3 n o (0 : Fin 1)) := by
  unfold row4
  exact concatenate_ofFn_unit_apply (t := S32x32x4) (s₁ := S32x32x1) (2 : Fin 3) ![p0, p1, p2, p3]
    concatenates_S32x32x1_S32x32x1_S32x32x1_S32x32x1_S32x32x4_d2 rfl rfl (ix3 n o c) c rfl (ix3 n o (0 : Fin 1))
    (fun b hb => match b, hb with
      | ⟨0, _⟩, _ => rfl
      | ⟨1, _⟩, _ => rfl
      | ⟨2, _⟩, hb => absurd rfl hb)

theorem row4_at0 (p0 p1 p2 p3 : FVec Ideal S32x32x1 .f32) (n o : Fin 32) :
    row4 p0 p1 p2 p3 (ix3 n o 0) = p0 (ix3 n o (0 : Fin 1)) := row4_apply p0 p1 p2 p3 n o 0
theorem row4_at1 (p0 p1 p2 p3 : FVec Ideal S32x32x1 .f32) (n o : Fin 32) :
    row4 p0 p1 p2 p3 (ix3 n o 1) = p1 (ix3 n o (0 : Fin 1)) := row4_apply p0 p1 p2 p3 n o 1
theorem row4_at2 (p0 p1 p2 p3 : FVec Ideal S32x32x1 .f32) (n o : Fin 32) :
    row4 p0 p1 p2 p3 (ix3 n o 2) = p2 (ix3 n o (0 : Fin 1)) := row4_apply p0 p1 p2 p3 n o 2
theorem row4_at3 (p0 p1 p2 p3 : FVec Ideal S32x32x1 .f32) (n o : Fin 32) :
    row4 p0 p1 p2 p3 (ix3 n o 3) = p3 (ix3 n o (0 : Fin 1)) := row4_apply p0 p1 p2 p3 n o 3

/-! ## Four such arrays stacked along a new third axis -/

def lift4 (r : FVec Ideal S32x32x4 .f32) : FVec Ideal S32x32x1x4 .f32 :=
  broadcastInDim S32x32x1x4 ![0, 1, 3] bcast_S32x32x4_S32x32x1x4_0_1_3 r

theorem lift4_apply (r : FVec Ideal S32x32x4 .f32) (n o : Fin 32) (z : Fin 1) (c : Fin 4) :
    lift4 r (ix4 n o z c) = r (ix3 n o c) := by
  unfold lift4
  exact broadcastInDim_apply _ bcast_S32x32x4_S32x32x1x4_0_1_3 r (ix4 n o z c) (ix3 n o c) (fun a => match a with
    | ⟨0, _⟩ => by show n.val = if (32 : Nat) = 1 then 0 else n.val; rw [if_neg (by decide)]
    | ⟨1, _⟩ => by show o.val = if (32 : Nat) = 1 then 0 else o.val; rw [if_neg (by decide)]
    | ⟨2, _⟩ => by show c.val = if (4 : Nat) = 1 then 0 else c.val; rw [if_neg (by decide)])

def blk4 (q0 q1 q2 q3 : FVec Ideal S32x32x1x4 .f32) : FVec Ideal S32x32x4x4 .f32 :=
  concatenate S32x32x4x4 2 [⟨S32x32x1x4, q0⟩, ⟨S32x32x1x4, q1⟩, ⟨S32x32x1x4, q2⟩, ⟨S32x32x1x4, q3⟩]
    concatenates_S32x32x1x4_S32x32x1x4_S32x32x1x4_S32x32x1x4_S32x32x4x4_d2

/-- Its entry (n, o, cin, cout) is piece `cin` at (n, o, 0, cout). -/
theorem blk4_apply (q0 q1 q2 q3 : FVec Ideal S32x32x1x4 .f32) (n o : Fin 32) (ci co : Fin 4) :
    blk4 q0 q1 q2 q3 (ix4 n o ci co) = (![q0, q1, q2, q3] ci) (ix4 n o (0 : Fin 1) co) := by
  unfold blk4
  exact concatenate_ofFn_unit_apply (t := S32x32x4x4) (s₁ := S32x32x1x4) (2 : Fin 4) ![q0, q1, q2, q3]
    concatenates_S32x32x1x4_S32x32x1x4_S32x32x1x4_S32x32x1x4_S32x32x4x4_d2 rfl rfl (ix4 n o ci co) ci rfl
    (ix4 n o (0 : Fin 1) co)
    (fun b hb => match b, hb with
      | ⟨0, _⟩, _ => rfl
      | ⟨1, _⟩, _ => rfl
      | ⟨2, _⟩, hb => absurd rfl hb
      | ⟨3, _⟩, _ => rfl)

theorem blk4_at0 (q0 q1 q2 q3 : FVec Ideal S32x32x1x4 .f32) (n o : Fin 32) (co : Fin 4) :
    blk4 q0 q1 q2 q3 (ix4 n o 0 co) = q0 (ix4 n o (0 : Fin 1) co) := blk4_apply q0 q1 q2 q3 n o 0 co
theorem blk4_at1 (q0 q1 q2 q3 : FVec Ideal S32x32x1x4 .f32) (n o : Fin 32) (co : Fin 4) :
    blk4 q0 q1 q2 q3 (ix4 n o 1 co) = q1 (ix4 n o (0 : Fin 1) co) := blk4_apply q0 q1 q2 q3 n o 1 co
theorem blk4_at2 (q0 q1 q2 q3 : FVec Ideal S32x32x1x4 .f32) (n o : Fin 32) (co : Fin 4) :
    blk4 q0 q1 q2 q3 (ix4 n o 2 co) = q2 (ix4 n o (0 : Fin 1) co) := blk4_apply q0 q1 q2 q3 n o 2 co
theorem blk4_at3 (q0 q1 q2 q3 : FVec Ideal S32x32x1x4 .f32) (n o : Fin 32) (co : Fin 4) :
    blk4 q0 q1 q2 q3 (ix4 n o 3 co) = q3 (ix4 n o (0 : Fin 1) co) := blk4_apply q0 q1 q2 q3 n o 3 co

/-! ## The middle axes swapped, read as a matrix -/

def wbigOf (B : FVec Ideal S32x32x4x4 .f32) : FVec Ideal S128x128 .f32 :=
  shapeCast S128x128 (transpose S32x4x32x4 [0, 2, 1, 3] B transposes_S32x32x4x4_S32x4x32x4_0_2_1_3)
    shapeCasts_S32x4x32x4_S128x128

/-- Row `4 n + cin`, column `4 o + cout` of the matrix is entry (n, o, cin, cout) of the stack. -/
theorem wbigOf_apply (B : FVec Ideal S32x32x4x4 .f32) (n o : Fin 32) (ci co : Fin 4) :
    wbigOf B (ix2 (q4 n ci) (q4 o co)) = B (ix4 n o ci co) := by
  unfold wbigOf
  rw [shapeCast_apply _ shapeCasts_S32x4x32x4_S128x128 (ix2 (q4 n ci) (q4 o co)) (ix4 n ci o co)
        (by rewrite [Shape.rowMajor_val_four, Shape.rowMajor_val_two]
            show ((n.val * 4 + ci.val) * 32 + o.val) * 4 + co.val = (4 * n.val + ci.val) * 128 + (4 * o.val + co.val)
            omega)]
  exact transpose_apply [0, 2, 1, 3] B transposes_S32x32x4x4_S32x4x32x4_0_2_1_3 (ix4 n ci o co) (ix4 n o ci co)
    (fun b => match b with | ⟨0, _⟩ => rfl | ⟨1, _⟩ => rfl | ⟨2, _⟩ => rfl | ⟨3, _⟩ => rfl)

/-! ## The matrix -/

/-- The matrix the region is handed, from the weight array. -/
def wbig : FVec Ideal S128x128 .f32 :=
  wbigOf (blk4
    (lift4 (row4 (col (plane0 w)) (col (plane1 w)) (col (plane2 w)) (col (plane3 w))))
    (lift4 (row4 (col (Host.negf (plane1 w))) (col (plane0 w)) (col (Host.negf (plane3 w))) (col (plane2 w))))
    (lift4 (row4 (col (Host.negf (plane2 w))) (col (plane3 w)) (col (plane0 w)) (col (Host.negf (plane1 w)))))
    (lift4 (row4 (col (Host.negf (plane3 w))) (col (Host.negf (plane2 w))) (col (plane1 w)) (col (plane0 w)))))

theorem wbig_00 (n o : Fin 32) : wbig w (ix2 (q4 n 0) (q4 o 0)) = w (ix3 o n 0) := by
  unfold wbig
  rw [wbigOf_apply, blk4_at0, lift4_apply, row4_at0, col_apply, plane0_apply]

theorem wbig_01 (n o : Fin 32) : wbig w (ix2 (q4 n 0) (q4 o 1)) = w (ix3 o n 1) := by
  unfold wbig
  rw [wbigOf_apply, blk4_at0, lift4_apply, row4_at1, col_apply, plane1_apply]

theorem wbig_02 (n o : Fin 32) : wbig w (ix2 (q4 n 0) (q4 o 2)) = w (ix3 o n 2) := by
  unfold wbig
  rw [wbigOf_apply, blk4_at0, lift4_apply, row4_at2, col_apply, plane2_apply]

theorem wbig_03 (n o : Fin 32) : wbig w (ix2 (q4 n 0) (q4 o 3)) = w (ix3 o n 3) := by
  unfold wbig
  rw [wbigOf_apply, blk4_at0, lift4_apply, row4_at3, col_apply, plane3_apply]

theorem wbig_10 (n o : Fin 32) : wbig w (ix2 (q4 n 1) (q4 o 0)) = -w (ix3 o n 1) := by
  unfold wbig
  rw [wbigOf_apply, blk4_at1, lift4_apply, row4_at0, col_apply, hostNegf_apply, plane1_apply]

theorem wbig_11 (n o : Fin 32) : wbig w (ix2 (q4 n 1) (q4 o 1)) = w (ix3 o n 0) := by
  unfold wbig
  rw [wbigOf_apply, blk4_at1, lift4_apply, row4_at1, col_apply, plane0_apply]

theorem wbig_12 (n o : Fin 32) : wbig w (ix2 (q4 n 1) (q4 o 2)) = -w (ix3 o n 3) := by
  unfold wbig
  rw [wbigOf_apply, blk4_at1, lift4_apply, row4_at2, col_apply, hostNegf_apply, plane3_apply]

theorem wbig_13 (n o : Fin 32) : wbig w (ix2 (q4 n 1) (q4 o 3)) = w (ix3 o n 2) := by
  unfold wbig
  rw [wbigOf_apply, blk4_at1, lift4_apply, row4_at3, col_apply, plane2_apply]

theorem wbig_20 (n o : Fin 32) : wbig w (ix2 (q4 n 2) (q4 o 0)) = -w (ix3 o n 2) := by
  unfold wbig
  rw [wbigOf_apply, blk4_at2, lift4_apply, row4_at0, col_apply, hostNegf_apply, plane2_apply]

theorem wbig_21 (n o : Fin 32) : wbig w (ix2 (q4 n 2) (q4 o 1)) = w (ix3 o n 3) := by
  unfold wbig
  rw [wbigOf_apply, blk4_at2, lift4_apply, row4_at1, col_apply, plane3_apply]

theorem wbig_22 (n o : Fin 32) : wbig w (ix2 (q4 n 2) (q4 o 2)) = w (ix3 o n 0) := by
  unfold wbig
  rw [wbigOf_apply, blk4_at2, lift4_apply, row4_at2, col_apply, plane0_apply]

theorem wbig_23 (n o : Fin 32) : wbig w (ix2 (q4 n 2) (q4 o 3)) = -w (ix3 o n 1) := by
  unfold wbig
  rw [wbigOf_apply, blk4_at2, lift4_apply, row4_at3, col_apply, hostNegf_apply, plane1_apply]

theorem wbig_30 (n o : Fin 32) : wbig w (ix2 (q4 n 3) (q4 o 0)) = -w (ix3 o n 3) := by
  unfold wbig
  rw [wbigOf_apply, blk4_at3, lift4_apply, row4_at0, col_apply, hostNegf_apply, plane3_apply]

theorem wbig_31 (n o : Fin 32) : wbig w (ix2 (q4 n 3) (q4 o 1)) = -w (ix3 o n 2) := by
  unfold wbig
  rw [wbigOf_apply, blk4_at3, lift4_apply, row4_at1, col_apply, hostNegf_apply, plane2_apply]

theorem wbig_32 (n o : Fin 32) : wbig w (ix2 (q4 n 3) (q4 o 2)) = w (ix3 o n 1) := by
  unfold wbig
  rw [wbigOf_apply, blk4_at3, lift4_apply, row4_at2, col_apply, plane1_apply]

theorem wbig_33 (n o : Fin 32) : wbig w (ix2 (q4 n 3) (q4 o 3)) = w (ix3 o n 0) := by
  unfold wbig
  rw [wbigOf_apply, blk4_at3, lift4_apply, row4_at3, col_apply, plane0_apply]

/-! ## The bias as a 1 x 128 row -/

def biasRow (b : FVec Ideal S128 .f32) : FVec Ideal S1x128 .f32 := shapeCast S1x128 b shapeCasts_S128_S1x128

theorem biasRow_apply (b : FVec Ideal S128 .f32) (z : Fin 1) (j : Fin 128) : biasRow b (ix2 z j) = b (ix1 j) := by
  unfold biasRow
  exact shapeCast_apply b shapeCasts_S128_S1x128 (ix2 z j) (ix1 j)
    (by rewrite [Shape.rowMajor_val_one, Shape.rowMajor_val_two]
        have hz : z.val = 0 := by omega
        show j.val = z.val * 128 + j.val; omega)

end Cert.KernelIdeal.Weights

end
-- ==== Proof.LibDotRead.lean ====
/-
  A matrix product into a zero accumulator, read at an entry.

  A contraction with no batch axis, one free axis on each side and one contracted axis is, at result entry (r, c),
  the sum over the contracted coordinate j of the two operands' entries. Two layouts occur:

    plain           [m, k] · [k, n]          entry (r, c) = Σ_j  lhs (r, j) * rhs (j, c)
    transposed rhs  [m, k] · [n, k]ᵀ         entry (r, c) = Σ_j  lhs (r, j) * rhs (c, j)

  The index maps of a contraction are stated for any dimension numbers; the facts needed are that on the one
  contracted axis an operand index is the contraction coordinate, and on the one free axis it is the result's row
  (left operand) or column (right operand) coordinate.
-/
import Idealize.ShloMosaic.PureOps.Ideal.Laws
import Idealize.ShloMosaic.Lib.ValueIdx

noncomputable section

namespace Cert.Pay

open Idealize.ShloMosaic Idealize.ShloMosaic.ValueIdx

section Free

variable {sl sr so : Shape} (d : DotDims sl sr so)

/-- No batch axis and one free left axis: on it, the left operand's index is the result index's first coordinate. -/
theorem lhsIdx_val_of_free {a : Fin sl.rank} (hb : d.lhsBatch = []) (hn : d.lhsNonContracting = [a]) (j : so.Idx)
    (k : d.contr.Idx) :
    (d.lhsIdx j k a).val = (j ⟨0, by rw [d.rank_out, hb, hn]; simp⟩).val := by
  have hnb : a ∉ d.lhsBatch := by rw [hb]; simp
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axis, one free axis on each side: on the right operand's free axis, its index is the result index's
    second coordinate. -/
theorem rhsIdx_val_of_free {a' : Fin sl.rank} {a : Fin sr.rank} (hlb : d.lhsBatch = []) (hrb : d.rhsBatch = [])
    (hln : d.lhsNonContracting = [a']) (hrn : d.rhsNonContracting = [a]) (j : so.Idx) (k : d.contr.Idx) :
    (d.rhsIdx j k a).val = (j ⟨1, by rw [d.rank_out, hlb, hln, hrn]; simp⟩).val := by
  have hnb : a ∉ d.rhsBatch := by rw [hrb]; simp
  have hmem : a ∈ d.rhsNonContracting := by rw [hrn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

end Free

/-- [m, k] · [k, n] into zero, at (r, c): Σ_j lhs (r, j) * rhs (j, c). -/
theorem matmul_plain_apply {m k n : ℕ} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![m, k]⟩ .f32) (rhs : FVec Ideal ⟨2, ![k, n]⟩ .f32)
    (r : Fin m) (c : Fin n) :
    FloatOps.matmul d prec lhs rhs (constant (F := Ideal) ⟨2, ![m, n]⟩ .f32 0x00000000#32) (ix2 r c)
      = ∑ j : Fin k, lhs (ix2 r j) * rhs (ix2 j c) := by
  have hr : d.contr.rank = 1 := by rw [d.rank_contr, hlc]; rfl
  have hs : d.contr.size ⟨0, by omega⟩ = k :=
    (d.size_contr 0 (by rw [hlc]; exact Nat.one_pos)).trans (by simp [hlc])
  rw [Ideal.matmul_constant_zero_apply, ← Equiv.sum_comp (contrEquiv1 d k hr hs).symm]
  refine Finset.sum_congr rfl fun j _ => ?_
  have e1 : d.lhsIdx (ix2 r c) ((contrEquiv1 d k hr hs).symm j) = ix2 r j := funext fun a => Fin.ext (by
    match a with
    | ⟨0, _⟩ => exact lhsIdx_val_of_free d hlb hln _ _
    | ⟨1, _⟩ => exact (d.lhsIdx_val_of_single hlc _ _).trans (contrEquiv1_symm_val d k hr hs j))
  have e2 : d.rhsIdx (ix2 r c) ((contrEquiv1 d k hr hs).symm j) = ix2 j c := funext fun a => Fin.ext (by
    match a with
    | ⟨0, _⟩ => exact (d.rhsIdx_val_of_single hrc _ _).trans (contrEquiv1_symm_val d k hr hs j)
    | ⟨1, _⟩ => exact rhsIdx_val_of_free d hlb hrb hln hrn _ _)
  rw [e1, e2]

/-- [m, k] · [n, k]ᵀ into zero, at (r, c): Σ_j lhs (r, j) * rhs (c, j). -/
theorem matmul_transposedRhs_apply {m k n : ℕ} (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![m, k]⟩ .f32) (rhs : FVec Ideal ⟨2, ![n, k]⟩ .f32)
    (r : Fin m) (c : Fin n) :
    FloatOps.matmul d prec lhs rhs (constant (F := Ideal) ⟨2, ![m, n]⟩ .f32 0x00000000#32) (ix2 r c)
      = ∑ j : Fin k, lhs (ix2 r j) * rhs (ix2 c j) := by
  have hr : d.contr.rank = 1 := by rw [d.rank_contr, hlc]; rfl
  have hs : d.contr.size ⟨0, by omega⟩ = k :=
    (d.size_contr 0 (by rw [hlc]; exact Nat.one_pos)).trans (by simp [hlc])
  rw [Ideal.matmul_constant_zero_apply, ← Equiv.sum_comp (contrEquiv1 d k hr hs).symm]
  refine Finset.sum_congr rfl fun j _ => ?_
  have e1 : d.lhsIdx (ix2 r c) ((contrEquiv1 d k hr hs).symm j) = ix2 r j := funext fun a => Fin.ext (by
    match a with
    | ⟨0, _⟩ => exact lhsIdx_val_of_free d hlb hln _ _
    | ⟨1, _⟩ => exact (d.lhsIdx_val_of_single hlc _ _).trans (contrEquiv1_symm_val d k hr hs j))
  have e2 : d.rhsIdx (ix2 r c) ((contrEquiv1 d k hr hs).symm j) = ix2 c j := funext fun a => Fin.ext (by
    match a with
    | ⟨0, _⟩ => exact rhsIdx_val_of_free d hlb hrb hln hrn _ _
    | ⟨1, _⟩ => exact (d.rhsIdx_val_of_single hrc _ _).trans (contrEquiv1_symm_val d k hr hs j))
  rw [e1, e2]

end Cert.Pay

end
-- ==== Proof.KernelValue.lean ====
/-
  The idealized kernel's result array, as one function of its three argument arrays.

  At grid point `t` the body stores, at entry (p, q) of its 8192 x 128 block,

      (sum over k < 128 of  xblock (p, k) * W (k, q))  +  row (0, q)

  where `xblock` is rows `8192 t ..` of `x`, `W` the 128 x 128 matrix and `row` the 1 x 128 bias row. Row `p` of block
  `t` is row `8192 t + p` of the array, and the matrix and the row are the same at every point, so what point `t`
  writes back is block `t` of the ONE array

      R (r, q)  =  (sum over k < 128 of  x (r, k) * W (k, q))  +  row (0, q).

  The 32 blocks tile the 262144 rows (row `r` lies in block `r / 8192`), so the array ends holding `R`. The matrix
  and the row the region finds are the weight array and the bias pushed through the forty-six whole-array
  operations: `wbig` and `biasRow`.
-/
import proofs.«119695_j2980707303755_1_alg».proof.Proof.KernelIdealLaunched
import proofs.«119695_j2980707303755_1_alg».proof.Proof.KernelWeights
import proofs.«119695_j2980707303755_1_alg».proof.Proof.LibDotRead
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Whole

open Cert.KernelIdeal Cert.KernelIdeal.Gen Cert.KernelIdeal.Launched Cert.KernelIdeal.Weights Cert.Quat
open Idealize.ShloMosaic Idealize.ShloMosaic.TcCoe Idealize.ShloMosaic.ValueIdx Idealize.SL.Sem
open Idealize.ShloMosaic.StableHlo
open Idealize.ShloMosaic.Pipeline (Dat)

/-! ## The body's arithmetic at an entry -/

/-- Entry (p, q) of what the body stores: row `p` of the block of `x` against column `q` of the matrix, plus entry
    `q` of the row. -/
theorem pay_apply (x0 : Vec Ideal S8192x128 .f32) (x1 : Vec Ideal S128x128 .f32) (x2 : Vec Ideal S1x128 .f32)
    (p : Fin 8192) (q : Fin 128) :
    k0_pay1 x0 x1 x2 (ix2 p q) = (∑ k : Fin 128, x0 (ix2 p k) * x1 (ix2 k q)) + x2 (ix2 (0 : Fin 1) q) := by
  show FloatOps.matmul dot_S8192x128_S128x128_S8192x128_1_0_0_1_n_n none x0 (shapeCast S128x128 x1 shapeCasts_S128x128_S128x128)
        (constant (F := Ideal) S8192x128 .f32 0x00000000#32) (ix2 p q)
      + broadcastTo S8192x128 (shapeCast S1x128 x2 shapeCasts_S1x128_S1x128) broadcasts_S1x128_S8192x128 (ix2 p q) = _
  rw [shapeCast_self, shapeCast_self,
      Cert.Pay.matmul_plain_apply dot_S8192x128_S128x128_S8192x128_1_0_0_1_n_n rfl rfl rfl rfl rfl rfl none x0 x1 p q,
      broadcastTo_apply x2 broadcasts_S1x128_S8192x128 (ix2 p q) (ix2 (0 : Fin 1) q) (fun a => match a with
        | ⟨0, _⟩ => by show (0 : Nat) = if (1 : Nat) = 1 then 0 else p.val; rw [if_pos rfl]
        | ⟨1, _⟩ => by show q.val = if (128 : Nat) = 1 then 0 else q.val; rw [if_neg (by decide)])]

theorem hz : (![0, 0] : Fin 2 → Nat) = fun _ => 0 := funext fun a => by fin_cases a <;> rfl

/-- The buffer the body leaves, entry by entry. -/
theorem leaves_apply (x0 : Vec Ideal S8192x128 .f32) (x1 : Vec Ideal S128x128 .f32) (x2 : Vec Ideal S1x128 .f32) :
    leaves x0 x1 x2 = fun j : S8192x128.Idx =>
      (∑ k : Fin 128, x0 (ix2 (j 0) k) * x1 (ix2 k (j 1))) + x2 (ix2 (0 : Fin 1) (j 1)) := by
  unfold leaves
  rw [View.canon_unit_zero hz]
  simp only [View.ld_unit_zero (S := S8192x128) hz, View.ld_unit_zero (S := S128x128) hz,
    View.ld_unit_zero (S := S1x128) hz]
  funext j
  obtain ⟨p, q, rfl⟩ : ∃ (p : Fin 8192) (q : Fin 128), j = ix2 p q := ⟨j 0, j 1, eq_ix2 j⟩
  exact pay_apply x0 x1 x2 p q

/-! ## The whole array -/

/-- The result as one function of `x`, the matrix and the row. -/
def R (X : S262144x128.Idx → EReal) (W : S128x128.Idx → EReal) (B : S1x128.Idx → EReal) : S262144x128.Idx → EReal :=
  fun i => (∑ k : Fin 128, X (ix2 (i 0) k) * W (ix2 k (i 1))) + B (ix2 (0 : Fin 1) (i 1))

variable (m : (ℓ : Loc nD τ sig) → Buf (Elt Ideal) ℓ) (ρ : Dev nD → PrngReg)

/-- Where the windows sit at each point: the block of `x` and the result block move together down the rows, one
    block per point; the matrix and the row never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the region finds, as arrays of extended reals. -/
abbrev Xs (c : Dev nD) : S262144x128.Idx → EReal := V m c main_arg0
abbrev Ws (c : Dev nD) : S128x128.Idx → EReal := V m c main_v44
abbrev Bs (c : Dev nD) : S1x128.Idx → EReal := V m c main_v45

/-- What point `t` writes back is block `t` of `R` of the arrays the region finds. -/
theorem flushed_eq (c : Dev nD) (t : Fin cfg0.N) :
    (dats m 0 c).flushed 3 t
      = ((cfg0.win 3).blk t).view.read (Elt Ideal) (R (Xs m c) (Ws m c) (Bs m c)) := by
  show (cfg0.win 3).cut (grid0.coords t) ((dats m 0 c).after 3 t) = _
  rw [after3, leaves_apply]
  obtain ⟨e00, e01, e10, e11, e20, e21, e30, e31⟩ := idx_facts t
  refine funext fun (j : S8192x128.Idx) => ?_
  show (∑ k : Fin 128, Xs m c (((cfg0.win 0).blk t).view.emb (ix2 (j 0) k))
          * Ws m c (((cfg0.win 1).blk t).view.emb (ix2 k (j 1))))
        + Bs m c (((cfg0.win 2).blk t).view.emb (ix2 (0 : Fin 1) (j 1)))
      = (∑ k : Fin 128, Xs m c (ix2 ((((cfg0.win 3).blk t).view.emb j) 0) k)
          * Ws m c (ix2 k ((((cfg0.win 3).blk t).view.emb j) 1)))
        + Bs m c (ix2 (0 : Fin 1) ((((cfg0.win 3).blk t).view.emb j) 1))
  have hj0 : (j 0).val < 8192 := (j 0).isLt
  have hj1 : (j 1).val < 128 := (j 1).isLt
  have h0 : ∀ k : Fin 128, ((cfg0.win 0).blk t).view.emb (ix2 (j 0) k)
      = ix2 ((((cfg0.win 3).blk t).view.emb j) 0) k := fun k => by
    funext a; apply Fin.ext
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 128 + 1 * k.val = k.val; omega
  have h1 : ∀ k : Fin 128, ((cfg0.win 1).blk t).view.emb (ix2 k (j 1))
      = ix2 k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (0 : Fin 1) (j 1))
      = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  simp only [h0, h1, h2]
  rfl

/-- An index of the array is in point `t`'s block iff each coordinate is in the block's range on its axis. -/
theorem mem_blk (t : Fin cfg0.N) (i : S262144x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v46).slice (win0_3.rect t)).set ↔ _
  rw [View.set_slice_whole, Rect.mem_set_unit]
  exact Iff.rfl

/-- Every row lies in some point's block: row `r` in block `r / 8192`. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 32 := N_0
  let t : Fin cfg0.N := ⟨(i 0).val / 8192, by rw [hN]; omega⟩
  have ht : t.val = (i 0).val / 8192 := rfl
  obtain ⟨-, -, -, -, -, -, e30, e31⟩ := idx_facts t
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-! ## The matrix and the row the region finds -/

/-- The matrix is `wbig` of the weight array as launched. -/
theorem V_matrix (c : Dev nD) :
    (V m c main_v44 : S128x128.Idx → EReal) = wbig (m ((c : Thread nD τ).loc main_arg1)) := by
  dsimp only [V]
  simp only [hostOps0, List.flatten_cons, List.flatten_nil, List.append_nil]
  after_results_simp <;> rfl

/-- The row is the bias as launched, reshaped. -/
theorem V_row (c : Dev nD) :
    (V m c main_v45 : S1x128.Idx → EReal) = biasRow (m ((c : Thread nD τ).loc main_arg2)) := by
  dsimp only [V]
  simp only [hostOps0, List.flatten_cons, List.flatten_nil, List.append_nil]
  after_results_simp <;> rfl

/-- The result array after the run. -/
theorem final (c : Dev nD) : (dats m 0 c).arrAt 3 cfg0.N
    = R (m ((c : Thread nD τ).loc main_arg0)) (wbig (m ((c : Thread nD τ).loc main_arg1)))
        (biasRow (m ((c : Thread nD τ).loc main_arg2))) := by
  rw [(dats m 0 c).arrAt_eq_of_cover 3 (R (Xs m c) (Ws m c) (Bs m c)) (fun t _ => flushed_eq m c t) covered]
  show R (V m c main_arg0) (V m c main_v44 : S128x128.Idx → EReal) (V m c main_v45 : S1x128.Idx → EReal) = _
  rw [V_main_arg0, V_matrix, V_row]

/-- Every weakly fair execution terminates with the result array at `R` of the arguments and the arguments as
    launched. -/
theorem run : θ_run defs (onTc (τ := τ) (main (F := Ideal))) ⟨m, fun _ => 0, ρ⟩ fun r => ∀ c : Dev nD,
      r.2.mem ((c : Thread nD τ).loc main_v46)
        = R (m ((c : Thread nD τ).loc main_arg0)) (wbig (m ((c : Thread nD τ).loc main_arg1)))
            (biasRow (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans (final m c),
     (((h c).1 0).trans (((dats m 0 c).arrAt_in 0 rfl _).trans (A_eq m c 0))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩)
    (run_main m ρ)

end Cert.KernelIdeal.Whole

end
-- ==== Proof.FiniteInputs.lean ====
/-
  Finite inputs are real numbers.

  The precondition says of each of the three argument arrays that every entry `v` has `|v| < +inf`: the three
  "all entries" tests and-ed together. An extended real whose absolute value, `max v (-v)`, is below `+inf` is neither
  `+inf` nor `-inf`, so it is a real number. Hence each array is a family of real numbers seen as extended reals.
-/
import proofs.«119695_j2980707303755_1_alg».proof.Pre_finite_inputs
import Idealize.ShloMosaic.PureOps.Ideal.Laws
import Idealize.ShloMosaic.Lib.ReduceAll
import Idealize.ShloMosaic.Lib.ValueIdx
import Idealize.ShloMosaic.Lib.Affine

noncomputable section

namespace Cert.Pre_finite_inputs.Reals

open Cert.Pre_finite_inputs Idealize.ShloMosaic

instance : Subsingleton S_.Idx := ⟨fun a b => funext fun d => d.elim0⟩

/-- An extended real with `|v| < +inf` (the word 0x7F800000 is `+inf`) is a real number. -/
theorem real_of_abs_lt_inf (v : Ideal .f32)
    (h : FloatOps.cmpf (F := Ideal) .olt (FloatOps.hostAbsf v) (FloatOps.ofBits (F := Ideal) .f32 0x7F800000#32) = 1#1) :
    ∃ r : ℝ, (v : EReal) = (r : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  induction v using EReal.rec with
  | bot => simp at h
  | coe r => exact ⟨r, rfl⟩
  | top => simp at h

variable [Facts]

/-- Under the precondition each argument array is a family of real numbers. -/
theorem reals_of_pre (a0 : FVec Ideal S262144x128 .f32) (a1 : FVec Ideal S32x32x4 .f32) (a2 : FVec Ideal S128 .f32)
    (h : fn (F := Ideal) a0 a1 a2 = fun _ => 1#1) :
    (∃ xr : S262144x128.Idx → ℝ, a0 = fun i => ((xr i : ℝ) : EReal))
    ∧ (∃ wr : S32x32x4.Idx → ℝ, a1 = fun i => ((wr i : ℝ) : EReal))
    ∧ (∃ br : S128.Idx → ℝ, a2 = fun i => ((br i : ℝ) : EReal)) := by
  have h0 := congrFun h ValueIdx.ix0
  dsimp only [fn] at h0
  change IntOp.andi (IntOp.andi _ _) _ = 1#1 at h0
  rw [IntOp.andi_eq_one, IntOp.andi_eq_one] at h0
  obtain ⟨⟨hx, hw⟩, hb⟩ := h0
  have ex : ∀ i, ∃ r : ℝ, (a0 i : EReal) = (r : EReal) := fun i =>
    real_of_abs_lt_inf (a0 i) (Host.reduce_andi_all _ _ _ _ _ hx i)
  have ew : ∀ i, ∃ r : ℝ, (a1 i : EReal) = (r : EReal) := fun i =>
    real_of_abs_lt_inf (a1 i) (Host.reduce_andi_all _ _ _ _ _ hw i)
  have eb : ∀ i, ∃ r : ℝ, (a2 i : EReal) = (r : EReal) := fun i =>
    real_of_abs_lt_inf (a2 i) (Host.reduce_andi_all _ _ _ _ _ hb i)
  choose xr hxr using ex
  choose wr hwr using ew
  choose br hbr using eb
  exact ⟨⟨xr, funext hxr⟩, ⟨wr, funext hwr⟩, ⟨br, funext hbr⟩⟩

end Cert.Pre_finite_inputs.Reals

end
-- ==== Proof.RefValue.lean ====
/-
  The idealized reference's result, entry by entry.

  The reference reads a row of `x` as 32 quaternions, `x (b, 4 n + c)` component `c` of quaternion `n`, and the weight
  array as `w (o, n, c)`. It forms sixteen sums over `n`,

      D cx cw (b, o)  =  sum over n < 32 of  x (b, 4 n + cx) * w (o, n, cw),

  and combines them, four at a time, into the four components of the quaternion products summed over `n`:

      real   D 0 0 - D 1 1 - D 2 2 - D 3 3
      i      D 0 1 + D 1 0 + D 2 3 - D 3 2
      j      D 0 2 - D 1 3 + D 2 0 + D 3 1
      k      D 0 3 + D 1 2 - D 2 1 + D 3 0

  Component `c` of output quaternion `o` lands in column `4 o + c`, and the bias is added to every row.
-/
import proofs.«119695_j2980707303755_1_alg».proof.Proof.Gen.ReferenceIdeal.Read
import proofs.«119695_j2980707303755_1_alg».proof.Proof.QuatAlgebra
import Idealize.ShloMosaic.Lib.Pipeline.Value
import Idealize.ShloMosaic.Lib.ValueIdx

noncomputable section

namespace Cert.ReferenceIdeal.AtIndex

open Cert.ReferenceIdeal Cert.ReferenceIdeal.Gen Cert.ReferenceIdeal.Read
open Idealize.ShloMosaic Idealize.ShloMosaic.ValueIdx Cert.Quat

variable (x : (⟨S262144x128, .f32⟩ : BufTy).Contents (Elt Ideal)) (w : (⟨S32x32x4, .f32⟩ : BufTy).Contents (Elt Ideal)) (bias : (⟨S128, .f32⟩ : BufTy).Contents (Elt Ideal))

/-- One of the sixteen sums: component `cx` of the row's quaternions against component `cw` of the weights. -/
def D (cx cw : Fin 4) (b : Fin 262144) (o : Fin 32) : EReal :=
  ∑ n : Fin 32, x (ix2 b (q4 n cx)) * w (ix3 o n cw)

/-! ## The component planes of `x` and of the weights -/

/-- The row of 128 read as [32, 4]: entry (b, n, c) is `x (b, 4 n + c)`. -/
theorem v0_at (b : Fin 262144) (n : Fin 32) (c : Fin 4) :
    val_main_v0 (F := Ideal) x (ix3 b n c) = x (ix2 b (q4 n c)) :=
  (val_main_v0_apply x _).trans (congrArg x (funext fun a => Fin.ext (match a with
    | ⟨0, _⟩ => by show ((b.val * 32 + n.val) * 4 + c.val) / 128 = b.val; omega
    | ⟨1, _⟩ => by show ((b.val * 32 + n.val) * 4 + c.val) % 128 = 4 * n.val + c.val; omega)))

theorem v1_at (b : Fin 262144) (n : Fin 32) :
    val_main_v1 (F := Ideal) x (ix3 b n (0 : Fin 1)) = val_main_v0 (F := Ideal) x (ix3 b n (0 : Fin 4)) :=
  (val_main_v1_apply x _).trans (congrArg _ (funext fun a => Fin.ext (match a with
    | ⟨0, _⟩ => rfl | ⟨1, _⟩ => rfl | ⟨2, _⟩ => rfl)))
theorem v2_at (b : Fin 262144) (n : Fin 32) :
    val_main_v2 (F := Ideal) x (ix2 b n) = val_main_v1 (F := Ideal) x (ix3 b n (0 : Fin 1)) :=
  (val_main_v2_apply x _).trans (congrArg _ (funext fun a => Fin.ext (match a with
    | ⟨0, _⟩ => by show (b.val * 32 + n.val) / 32 = b.val; omega
    | ⟨1, _⟩ => by show (b.val * 32 + n.val) / 1 % 32 = n.val; omega
    | ⟨2, _⟩ => rfl)))
/-- Component 0 of the row's quaternions. -/
theorem xc0 (b : Fin 262144) (n : Fin 32) : val_main_v2 (F := Ideal) x (ix2 b n) = x (ix2 b (q4 n 0)) := by
  rw [v2_at, v1_at, v0_at]

theorem v3_at (b : Fin 262144) (n : Fin 32) :
    val_main_v3 (F := Ideal) x (ix3 b n (0 : Fin 1)) = val_main_v0 (F := Ideal) x (ix3 b n (1 : Fin 4)) :=
  (val_main_v3_apply x _).trans (congrArg _ (funext fun a => Fin.ext (match a with
    | ⟨0, _⟩ => rfl | ⟨1, _⟩ => rfl | ⟨2, _⟩ => rfl)))
theorem v4_at (b : Fin 262144) (n : Fin 32) :
    val_main_v4 (F := Ideal) x (ix2 b n) = val_main_v3 (F := Ideal) x (ix3 b n (0 : Fin 1)) :=
  (val_main_v4_apply x _).trans (congrArg _ (funext fun a => Fin.ext (match a with
    | ⟨0, _⟩ => by show (b.val * 32 + n.val) / 32 = b.val; omega
    | ⟨1, _⟩ => by show (b.val * 32 + n.val) / 1 % 32 = n.val; omega
    | ⟨2, _⟩ => rfl)))
/-- Component 1 of the row's quaternions. -/
theorem xc1 (b : Fin 262144) (n : Fin 32) : val_main_v4 (F := Ideal) x (ix2 b n) = x (ix2 b (q4 n 1)) := by
  rw [v4_at, v3_at, v0_at]

theorem v5_at (b : Fin 262144) (n : Fin 32) :
    val_main_v5 (F := Ideal) x (ix3 b n (0 : Fin 1)) = val_main_v0 (F := Ideal) x (ix3 b n (2 : Fin 4)) :=
  (val_main_v5_apply x _).trans (congrArg _ (funext fun a => Fin.ext (match a with
    | ⟨0, _⟩ => rfl | ⟨1, _⟩ => rfl | ⟨2, _⟩ => rfl)))
theorem v6_at (b : Fin 262144) (n : Fin 32) :
    val_main_v6 (F := Ideal) x (ix2 b n) = val_main_v5 (F := Ideal) x (ix3 b n (0 : Fin 1)) :=
  (val_main_v6_apply x _).trans (congrArg _ (funext fun a => Fin.ext (match a with
    | ⟨0, _⟩ => by show (b.val * 32 + n.val) / 32 = b.val; omega
    | ⟨1, _⟩ => by show (b.val * 32 + n.val) / 1 % 32 = n.val; omega
    | ⟨2, _⟩ => rfl)))
/-- Component 2 of the row's quaternions. -/
theorem xc2 (b : Fin 262144) (n : Fin 32) : val_main_v6 (F := Ideal) x (ix2 b n) = x (ix2 b (q4 n 2)) := by
  rw [v6_at, v5_at, v0_at]

theorem v7_at (b : Fin 262144) (n : Fin 32) :
    val_main_v7 (F := Ideal) x (ix3 b n (0 : Fin 1)) = val_main_v0 (F := Ideal) x (ix3 b n (3 : Fin 4)) :=
  (val_main_v7_apply x _).trans (congrArg _ (funext fun a => Fin.ext (match a with
    | ⟨0, _⟩ => rfl | ⟨1, _⟩ => rfl | ⟨2, _⟩ => rfl)))
theorem v8_at (b : Fin 262144) (n : Fin 32) :
    val_main_v8 (F := Ideal) x (ix2 b n) = val_main_v7 (F := Ideal) x (ix3 b n (0 : Fin 1)) :=
  (val_main_v8_apply x _).trans (congrArg _ (funext fun a => Fin.ext (match a with
    | ⟨0, _⟩ => by show (b.val * 32 + n.val) / 32 = b.val; omega
    | ⟨1, _⟩ => by show (b.val * 32 + n.val) / 1 % 32 = n.val; omega
    | ⟨2, _⟩ => rfl)))
/-- Component 3 of the row's quaternions. -/
theorem xc3 (b : Fin 262144) (n : Fin 32) : val_main_v8 (F := Ideal) x (ix2 b n) = x (ix2 b (q4 n 3)) := by
  rw [v8_at, v7_at, v0_at]

theorem v9_at (o n : Fin 32) : val_main_v9 (F := Ideal) w (ix3 o n (0 : Fin 1)) = w (ix3 o n (0 : Fin 4)) :=
  (val_main_v9_apply w _).trans (congrArg w (funext fun a => Fin.ext (match a with
    | ⟨0, _⟩ => rfl | ⟨1, _⟩ => rfl | ⟨2, _⟩ => rfl)))
theorem v10_at (o n : Fin 32) :
    val_main_v10 (F := Ideal) w (ix2 o n) = val_main_v9 (F := Ideal) w (ix3 o n (0 : Fin 1)) :=
  (val_main_v10_apply w _).trans (congrArg _ (funext fun a => Fin.ext (match a with
    | ⟨0, _⟩ => by show (o.val * 32 + n.val) / 32 = o.val; omega
    | ⟨1, _⟩ => by show (o.val * 32 + n.val) / 1 % 32 = n.val; omega
    | ⟨2, _⟩ => rfl)))
/-- Component 0 of the weights. -/
theorem wc0 (o n : Fin 32) : val_main_v10 (F := Ideal) w (ix2 o n) = w (ix3 o n 0) := by
  rw [v10_at, v9_at]

theorem v11_at (o n : Fin 32) : val_main_v11 (F := Ideal) w (ix3 o n (0 : Fin 1)) = w (ix3 o n (1 : Fin 4)) :=
  (val_main_v11_apply w _).trans (congrArg w (funext fun a => Fin.ext (match a with
    | ⟨0, _⟩ => rfl | ⟨1, _⟩ => rfl | ⟨2, _⟩ => rfl)))
theorem v12_at (o n : Fin 32) :
    val_main_v12 (F := Ideal) w (ix2 o n) = val_main_v11 (F := Ideal) w (ix3 o n (0 : Fin 1)) :=
  (val_main_v12_apply w _).trans (congrArg _ (funext fun a => Fin.ext (match a with
    | ⟨0, _⟩ => by show (o.val * 32 + n.val) / 32 = o.val; omega
    | ⟨1, _⟩ => by show (o.val * 32 + n.val) / 1 % 32 = n.val; omega
    | ⟨2, _⟩ => rfl)))
/-- Component 1 of the weights. -/
theorem wc1 (o n : Fin 32) : val_main_v12 (F := Ideal) w (ix2 o n) = w (ix3 o n 1) := by
  rw [v12_at, v11_at]

theorem v13_at (o n : Fin 32) : val_main_v13 (F := Ideal) w (ix3 o n (0 : Fin 1)) = w (ix3 o n (2 : Fin 4)) :=
  (val_main_v13_apply w _).trans (congrArg w (funext fun a => Fin.ext (match a with
    | ⟨0, _⟩ => rfl | ⟨1, _⟩ => rfl | ⟨2, _⟩ => rfl)))
theorem v14_at (o n : Fin 32) :
    val_main_v14 (F := Ideal) w (ix2 o n) = val_main_v13 (F := Ideal) w (ix3 o n (0 : Fin 1)) :=
  (val_main_v14_apply w _).trans (congrArg _ (funext fun a => Fin.ext (match a with
    | ⟨0, _⟩ => by show (o.val * 32 + n.val) / 32 = o.val; omega
    | ⟨1, _⟩ => by show (o.val * 32 + n.val) / 1 % 32 = n.val; omega
    | ⟨2, _⟩ => rfl)))
/-- Component 2 of the weights. -/
theorem wc2 (o n : Fin 32) : val_main_v14 (F := Ideal) w (ix2 o n) = w (ix3 o n 2) := by
  rw [v14_at, v13_at]

theorem v15_at (o n : Fin 32) : val_main_v15 (F := Ideal) w (ix3 o n (0 : Fin 1)) = w (ix3 o n (3 : Fin 4)) :=
  (val_main_v15_apply w _).trans (congrArg w (funext fun a => Fin.ext (match a with
    | ⟨0, _⟩ => rfl | ⟨1, _⟩ => rfl | ⟨2, _⟩ => rfl)))
theorem v16_at (o n : Fin 32) :
    val_main_v16 (F := Ideal) w (ix2 o n) = val_main_v15 (F := Ideal) w (ix3 o n (0 : Fin 1)) :=
  (val_main_v16_apply w _).trans (congrArg _ (funext fun a => Fin.ext (match a with
    | ⟨0, _⟩ => by show (o.val * 32 + n.val) / 32 = o.val; omega
    | ⟨1, _⟩ => by show (o.val * 32 + n.val) / 1 % 32 = n.val; omega
    | ⟨2, _⟩ => rfl)))
/-- Component 3 of the weights. -/
theorem wc3 (o n : Fin 32) : val_main_v16 (F := Ideal) w (ix2 o n) = w (ix3 o n 3) := by
  rw [v16_at, v15_at]

/-! ## The sixteen sums -/

theorem dot17 (b : Fin 262144) (o : Fin 32) : val_main_v17 (F := Ideal) x w (ix2 b o) = D x w 0 0 b o := by
  rw [val_main_v17_apply]
  refine Finset.sum_congr rfl fun k _ => ?_
  rw [show lidx_main_v17 (ix2 b o) k = ix2 b k from funext fun a => Fin.ext (match a with | ⟨0, _⟩ => rfl | ⟨1, _⟩ => rfl),
      show ridx_main_v17 (ix2 b o) k = ix2 o k from funext fun a => Fin.ext (match a with | ⟨0, _⟩ => rfl | ⟨1, _⟩ => rfl),
      xc0, wc0]

theorem dot18 (b : Fin 262144) (o : Fin 32) : val_main_v18 (F := Ideal) x w (ix2 b o) = D x w 1 1 b o := by
  rw [val_main_v18_apply]
  refine Finset.sum_congr rfl fun k _ => ?_
  rw [show lidx_main_v18 (ix2 b o) k = ix2 b k from funext fun a => Fin.ext (match a with | ⟨0, _⟩ => rfl | ⟨1, _⟩ => rfl),
      show ridx_main_v18 (ix2 b o) k = ix2 o k from funext fun a => Fin.ext (match a with | ⟨0, _⟩ => rfl | ⟨1, _⟩ => rfl),
      xc1, wc1]

theorem dot20 (b : Fin 262144) (o : Fin 32) : val_main_v20 (F := Ideal) x w (ix2 b o) = D x w 2 2 b o := by
  rw [val_main_v20_apply]
  refine Finset.sum_congr rfl fun k _ => ?_
  rw [show lidx_main_v20 (ix2 b o) k = ix2 b k from funext fun a => Fin.ext (match a with | ⟨0, _⟩ => rfl | ⟨1, _⟩ => rfl),
      show ridx_main_v20 (ix2 b o) k = ix2 o k from funext fun a => Fin.ext (match a with | ⟨0, _⟩ => rfl | ⟨1, _⟩ => rfl),
      xc2, wc2]

theorem dot22 (b : Fin 262144) (o : Fin 32) : val_main_v22 (F := Ideal) x w (ix2 b o) = D x w 3 3 b o := by
  rw [val_main_v22_apply]
  refine Finset.sum_congr rfl fun k _ => ?_
  rw [show lidx_main_v22 (ix2 b o) k = ix2 b k from funext fun a => Fin.ext (match a with | ⟨0, _⟩ => rfl | ⟨1, _⟩ => rfl),
      show ridx_main_v22 (ix2 b o) k = ix2 o k from funext fun a => Fin.ext (match a with | ⟨0, _⟩ => rfl | ⟨1, _⟩ => rfl),
      xc3, wc3]

theorem dot24 (b : Fin 262144) (o : Fin 32) : val_main_v24 (F := Ideal) x w (ix2 b o) = D x w 0 1 b o := by
  rw [val_main_v24_apply]
  refine Finset.sum_congr rfl fun k _ => ?_
  rw [show lidx_main_v24 (ix2 b o) k = ix2 b k from funext fun a => Fin.ext (match a with | ⟨0, _⟩ => rfl | ⟨1, _⟩ => rfl),
      show ridx_main_v24 (ix2 b o) k = ix2 o k from funext fun a => Fin.ext (match a with | ⟨0, _⟩ => rfl | ⟨1, _⟩ => rfl),
      xc0, wc1]

theorem dot25 (b : Fin 262144) (o : Fin 32) : val_main_v25 (F := Ideal) x w (ix2 b o) = D x w 1 0 b o := by
  rw [val_main_v25_apply]
  refine Finset.sum_congr rfl fun k _ => ?_
  rw [show lidx_main_v25 (ix2 b o) k = ix2 b k from funext fun a => Fin.ext (match a with | ⟨0, _⟩ => rfl | ⟨1, _⟩ => rfl),
      show ridx_main_v25 (ix2 b o) k = ix2 o k from funext fun a => Fin.ext (match a with | ⟨0, _⟩ => rfl | ⟨1, _⟩ => rfl),
      xc1, wc0]

theorem dot27 (b : Fin 262144) (o : Fin 32) : val_main_v27 (F := Ideal) x w (ix2 b o) = D x w 2 3 b o := by
  rw [val_main_v27_apply]
  refine Finset.sum_congr rfl fun k _ => ?_
  rw [show lidx_main_v27 (ix2 b o) k = ix2 b k from funext fun a => Fin.ext (match a with | ⟨0, _⟩ => rfl | ⟨1, _⟩ => rfl),
      show ridx_main_v27 (ix2 b o) k = ix2 o k from funext fun a => Fin.ext (match a with | ⟨0, _⟩ => rfl | ⟨1, _⟩ => rfl),
      xc2, wc3]

theorem dot29 (b : Fin 262144) (o : Fin 32) : val_main_v29 (F := Ideal) x w (ix2 b o) = D x w 3 2 b o := by
  rw [val_main_v29_apply]
  refine Finset.sum_congr rfl fun k _ => ?_
  rw [show lidx_main_v29 (ix2 b o) k = ix2 b k from funext fun a => Fin.ext (match a with | ⟨0, _⟩ => rfl | ⟨1, _⟩ => rfl),
      show ridx_main_v29 (ix2 b o) k = ix2 o k from funext fun a => Fin.ext (match a with | ⟨0, _⟩ => rfl | ⟨1, _⟩ => rfl),
      xc3, wc2]

theorem dot31 (b : Fin 262144) (o : Fin 32) : val_main_v31 (F := Ideal) x w (ix2 b o) = D x w 0 2 b o := by
  rw [val_main_v31_apply]
  refine Finset.sum_congr rfl fun k _ => ?_
  rw [show lidx_main_v31 (ix2 b o) k = ix2 b k from funext fun a => Fin.ext (match a with | ⟨0, _⟩ => rfl | ⟨1, _⟩ => rfl),
      show ridx_main_v31 (ix2 b o) k = ix2 o k from funext fun a => Fin.ext (match a with | ⟨0, _⟩ => rfl | ⟨1, _⟩ => rfl),
      xc0, wc2]

theorem dot32 (b : Fin 262144) (o : Fin 32) : val_main_v32 (F := Ideal) x w (ix2 b o) = D x w 1 3 b o := by
  rw [val_main_v32_apply]
  refine Finset.sum_congr rfl fun k _ => ?_
  rw [show lidx_main_v32 (ix2 b o) k = ix2 b k from funext fun a => Fin.ext (match a with | ⟨0, _⟩ => rfl | ⟨1, _⟩ => rfl),
      show ridx_main_v32 (ix2 b o) k = ix2 o k from funext fun a => Fin.ext (match a with | ⟨0, _⟩ => rfl | ⟨1, _⟩ => rfl),
      xc1, wc3]

theorem dot34 (b : Fin 262144) (o : Fin 32) : val_main_v34 (F := Ideal) x w (ix2 b o) = D x w 2 0 b o := by
  rw [val_main_v34_apply]
  refine Finset.sum_congr rfl fun k _ => ?_
  rw [show lidx_main_v34 (ix2 b o) k = ix2 b k from funext fun a => Fin.ext (match a with | ⟨0, _⟩ => rfl | ⟨1, _⟩ => rfl),
      show ridx_main_v34 (ix2 b o) k = ix2 o k from funext fun a => Fin.ext (match a with | ⟨0, _⟩ => rfl | ⟨1, _⟩ => rfl),
      xc2, wc0]

theorem dot36 (b : Fin 262144) (o : Fin 32) : val_main_v36 (F := Ideal) x w (ix2 b o) = D x w 3 1 b o := by
  rw [val_main_v36_apply]
  refine Finset.sum_congr rfl fun k _ => ?_
  rw [show lidx_main_v36 (ix2 b o) k = ix2 b k from funext fun a => Fin.ext (match a with | ⟨0, _⟩ => rfl | ⟨1, _⟩ => rfl),
      show ridx_main_v36 (ix2 b o) k = ix2 o k from funext fun a => Fin.ext (match a with | ⟨0, _⟩ => rfl | ⟨1, _⟩ => rfl),
      xc3, wc1]

theorem dot38 (b : Fin 262144) (o : Fin 32) : val_main_v38 (F := Ideal) x w (ix2 b o) = D x w 0 3 b o := by
  rw [val_main_v38_apply]
  refine Finset.sum_congr rfl fun k _ => ?_
  rw [show lidx_main_v38 (ix2 b o) k = ix2 b k from funext fun a => Fin.ext (match a with | ⟨0, _⟩ => rfl | ⟨1, _⟩ => rfl),
      show ridx_main_v38 (ix2 b o) k = ix2 o k from funext fun a => Fin.ext (match a with | ⟨0, _⟩ => rfl | ⟨1, _⟩ => rfl),
      xc0, wc3]

theorem dot39 (b : Fin 262144) (o : Fin 32) : val_main_v39 (F := Ideal) x w (ix2 b o) = D x w 1 2 b o := by
  rw [val_main_v39_apply]
  refine Finset.sum_congr rfl fun k _ => ?_
  rw [show lidx_main_v39 (ix2 b o) k = ix2 b k from funext fun a => Fin.ext (match a with | ⟨0, _⟩ => rfl | ⟨1, _⟩ => rfl),
      show ridx_main_v39 (ix2 b o) k = ix2 o k from funext fun a => Fin.ext (match a with | ⟨0, _⟩ => rfl | ⟨1, _⟩ => rfl),
      xc1, wc2]

theorem dot41 (b : Fin 262144) (o : Fin 32) : val_main_v41 (F := Ideal) x w (ix2 b o) = D x w 2 1 b o := by
  rw [val_main_v41_apply]
  refine Finset.sum_congr rfl fun k _ => ?_
  rw [show lidx_main_v41 (ix2 b o) k = ix2 b k from funext fun a => Fin.ext (match a with | ⟨0, _⟩ => rfl | ⟨1, _⟩ => rfl),
      show ridx_main_v41 (ix2 b o) k = ix2 o k from funext fun a => Fin.ext (match a with | ⟨0, _⟩ => rfl | ⟨1, _⟩ => rfl),
      xc2, wc1]

theorem dot43 (b : Fin 262144) (o : Fin 32) : val_main_v43 (F := Ideal) x w (ix2 b o) = D x w 3 0 b o := by
  rw [val_main_v43_apply]
  refine Finset.sum_congr rfl fun k _ => ?_
  rw [show lidx_main_v43 (ix2 b o) k = ix2 b k from funext fun a => Fin.ext (match a with | ⟨0, _⟩ => rfl | ⟨1, _⟩ => rfl),
      show ridx_main_v43 (ix2 b o) k = ix2 o k from funext fun a => Fin.ext (match a with | ⟨0, _⟩ => rfl | ⟨1, _⟩ => rfl),
      xc3, wc0]

/-! ## The four components -/

theorem comp0 (b : Fin 262144) (o : Fin 32) : val_main_v23 (F := Ideal) x w (ix2 b o)
    = D x w 0 0 b o - D x w 1 1 b o - D x w 2 2 b o - D x w 3 3 b o := by
  rw [val_main_v23_apply, val_main_v21_apply, val_main_v19_apply, dot17, dot18, dot20, dot22]; rfl

theorem comp1 (b : Fin 262144) (o : Fin 32) : val_main_v30 (F := Ideal) x w (ix2 b o)
    = D x w 0 1 b o + D x w 1 0 b o + D x w 2 3 b o - D x w 3 2 b o := by
  rw [val_main_v30_apply, val_main_v28_apply, val_main_v26_apply, dot24, dot25, dot27, dot29]; rfl

theorem comp2 (b : Fin 262144) (o : Fin 32) : val_main_v37 (F := Ideal) x w (ix2 b o)
    = D x w 0 2 b o - D x w 1 3 b o + D x w 2 0 b o + D x w 3 1 b o := by
  rw [val_main_v37_apply, val_main_v35_apply, val_main_v33_apply, dot31, dot32, dot34, dot36]; rfl

theorem comp3 (b : Fin 262144) (o : Fin 32) : val_main_v44 (F := Ideal) x w (ix2 b o)
    = D x w 0 3 b o + D x w 1 2 b o - D x w 2 1 b o + D x w 3 0 b o := by
  rw [val_main_v44_apply, val_main_v42_apply, val_main_v40_apply, dot38, dot39, dot41, dot43]; rfl

/-! ## Laid into the columns, plus the bias -/

theorem v45_at (b : Fin 262144) (o : Fin 32) :
    val_main_v45 (F := Ideal) x w (ix3 b o (0 : Fin 1)) = val_main_v23 (F := Ideal) x w (ix2 b o) :=
  (val_main_v45_apply x w _).trans (congrArg _ (funext fun a => Fin.ext (match a with | ⟨0, _⟩ => rfl | ⟨1, _⟩ => rfl)))

theorem v46_at (b : Fin 262144) (o : Fin 32) :
    val_main_v46 (F := Ideal) x w (ix3 b o (0 : Fin 1)) = val_main_v30 (F := Ideal) x w (ix2 b o) :=
  (val_main_v46_apply x w _).trans (congrArg _ (funext fun a => Fin.ext (match a with | ⟨0, _⟩ => rfl | ⟨1, _⟩ => rfl)))

theorem v47_at (b : Fin 262144) (o : Fin 32) :
    val_main_v47 (F := Ideal) x w (ix3 b o (0 : Fin 1)) = val_main_v37 (F := Ideal) x w (ix2 b o) :=
  (val_main_v47_apply x w _).trans (congrArg _ (funext fun a => Fin.ext (match a with | ⟨0, _⟩ => rfl | ⟨1, _⟩ => rfl)))

theorem v48_at (b : Fin 262144) (o : Fin 32) :
    val_main_v48 (F := Ideal) x w (ix3 b o (0 : Fin 1)) = val_main_v44 (F := Ideal) x w (ix2 b o) :=
  (val_main_v48_apply x w _).trans (congrArg _ (funext fun a => Fin.ext (match a with | ⟨0, _⟩ => rfl | ⟨1, _⟩ => rfl)))

/-- The four components side by side: entry (b, o, c) is component `c` at (b, o). -/
theorem v49_at (b : Fin 262144) (o : Fin 32) (c : Fin 4) :
    val_main_v49 (F := Ideal) x w (ix3 b o c)
      = (![val_main_v45 (F := Ideal) x w, val_main_v46 (F := Ideal) x w, val_main_v47 (F := Ideal) x w,
            val_main_v48 (F := Ideal) x w] c) (ix3 b o (0 : Fin 1)) := by
  unfold val_main_v49
  exact concatenate_ofFn_unit_apply (t := S262144x32x4) (s₁ := S262144x32x1) (2 : Fin 3)
    ![val_main_v45 (F := Ideal) x w, val_main_v46 (F := Ideal) x w, val_main_v47 (F := Ideal) x w, val_main_v48 (F := Ideal) x w]
    concatenates_S262144x32x1_S262144x32x1_S262144x32x1_S262144x32x1_S262144x32x4_d2 rfl rfl (ix3 b o c) c rfl
    (ix3 b o (0 : Fin 1))
    (fun a ha => match a, ha with
      | ⟨0, _⟩, _ => rfl
      | ⟨1, _⟩, _ => rfl
      | ⟨2, _⟩, ha => absurd rfl ha)

/-- Column `4 o + c` of the [262144, 128] result is entry (b, o, c). -/
theorem v50_at (b : Fin 262144) (o : Fin 32) (c : Fin 4) :
    val_main_v50 (F := Ideal) x w (ix2 b (q4 o c)) = val_main_v49 (F := Ideal) x w (ix3 b o c) :=
  (val_main_v50_apply x w _).trans (congrArg _ (funext fun a => Fin.ext (match a with
    | ⟨0, _⟩ => by show (b.val * 128 + (4 * o.val + c.val)) / 128 = b.val; omega
    | ⟨1, _⟩ => by show (b.val * 128 + (4 * o.val + c.val)) / 4 % 32 = o.val; omega
    | ⟨2, _⟩ => by show (b.val * 128 + (4 * o.val + c.val)) % 4 = c.val; omega)))

/-- The bias, on every row. -/
theorem v52_at (b : Fin 262144) (j : Fin 128) : val_main_v52 (F := Ideal) bias (ix2 b j) = bias (ix1 j) :=
  (val_main_v52_apply bias _).trans ((val_main_v51_apply bias _).trans
    (congrArg bias (funext fun a => Fin.ext (match a with | ⟨0, _⟩ => rfl))))

theorem ref_at0 (b : Fin 262144) (o : Fin 32) : val_main_v53 (F := Ideal) x w bias (ix2 b (q4 o 0))
    = (D x w 0 0 b o - D x w 1 1 b o - D x w 2 2 b o - D x w 3 3 b o) + bias (ix1 (q4 o 0)) := by
  rw [val_main_v53_apply, v50_at, v49_at, v52_at]
  show val_main_v45 (F := Ideal) x w (ix3 b o (0 : Fin 1)) + _ = _
  rw [v45_at, comp0]

theorem ref_at1 (b : Fin 262144) (o : Fin 32) : val_main_v53 (F := Ideal) x w bias (ix2 b (q4 o 1))
    = (D x w 0 1 b o + D x w 1 0 b o + D x w 2 3 b o - D x w 3 2 b o) + bias (ix1 (q4 o 1)) := by
  rw [val_main_v53_apply, v50_at, v49_at, v52_at]
  show val_main_v46 (F := Ideal) x w (ix3 b o (0 : Fin 1)) + _ = _
  rw [v46_at, comp1]

theorem ref_at2 (b : Fin 262144) (o : Fin 32) : val_main_v53 (F := Ideal) x w bias (ix2 b (q4 o 2))
    = (D x w 0 2 b o - D x w 1 3 b o + D x w 2 0 b o + D x w 3 1 b o) + bias (ix1 (q4 o 2)) := by
  rw [val_main_v53_apply, v50_at, v49_at, v52_at]
  show val_main_v47 (F := Ideal) x w (ix3 b o (0 : Fin 1)) + _ = _
  rw [v47_at, comp2]

theorem ref_at3 (b : Fin 262144) (o : Fin 32) : val_main_v53 (F := Ideal) x w bias (ix2 b (q4 o 3))
    = (D x w 0 3 b o + D x w 1 2 b o - D x w 2 1 b o + D x w 3 0 b o) + bias (ix1 (q4 o 3)) := by
  rw [val_main_v53_apply, v50_at, v49_at, v52_at]
  show val_main_v48 (F := Ideal) x w (ix3 b o (0 : Fin 1)) + _ = _
  rw [v48_at, comp3]

end Cert.ReferenceIdeal.AtIndex

end
-- ==== Proof.Bridge.lean ====
/-
  For real data the kernel's array and the reference's array are one.

  At (b, 4 o + c) the kernel's entry is the sum over the 128 positions `k` of `x (b, k)` times the matrix entry
  (k, 4 o + c), plus the bias. Taking the positions four at a time (position `4 n + cin`), the four matrix entries
  of quaternion `n` are the column `c` of the table of signed weight components, so the inner four terms are exactly
  the four terms of component `c` of the product of quaternion `n` of the row by `w (o, n, .)`. The reference
  computes the same component as four separate sums over `n` combined afterwards. For real numbers the two orders
  agree (the component laws); the bias is added last on both sides.
-/
import proofs.«119695_j2980707303755_1_alg».proof.Proof.KernelValue
import proofs.«119695_j2980707303755_1_alg».proof.Proof.RefValue
import Mathlib.Algebra.BigOperators.Fin

noncomputable section

namespace Cert.Bridge

open Cert.KernelIdeal.Whole Cert.KernelIdeal.Weights Cert.ReferenceIdeal.AtIndex Cert.ReferenceIdeal.Read Cert.Quat
open Idealize.ShloMosaic Idealize.ShloMosaic.ValueIdx

/-- Column `4 o + 0`. -/
theorem col0 (xr : Cert.KernelIdeal.S262144x128.Idx → ℝ) (wr : Cert.KernelIdeal.S32x32x4.Idx → ℝ) (br : Cert.KernelIdeal.S128.Idx → ℝ) (b : Fin 262144) (o : Fin 32) :
    R (fun i => ((xr i : ℝ) : EReal)) (wbig (fun i => ((wr i : ℝ) : EReal))) (biasRow (fun i => ((br i : ℝ) : EReal))) (ix2 b (q4 o 0))
      = val_main_v53 (F := Ideal) (fun i => ((xr i : ℝ) : EReal)) (fun i => ((wr i : ℝ) : EReal)) (fun i => ((br i : ℝ) : EReal)) (ix2 b (q4 o 0)) := by
  rw [ref_at0]
  show (∑ k : Fin 128, (fun i => ((xr i : ℝ) : EReal)) (ix2 b k) * wbig (fun i => ((wr i : ℝ) : EReal)) (ix2 k (q4 o 0)))
      + biasRow (fun i => ((br i : ℝ) : EReal)) (ix2 (0 : Fin 1) (q4 o 0)) = _
  rw [sum_q4, biasRow_apply]
  simp only [Fin.sum_univ_four, wbig_00, wbig_10, wbig_20, wbig_30]
  unfold D
  refine congrArg (fun z : EReal => z + _) ?_
  exact comp_real (fun n => xr (ix2 b (q4 n 0))) (fun n => xr (ix2 b (q4 n 1))) (fun n => xr (ix2 b (q4 n 2)))
    (fun n => xr (ix2 b (q4 n 3))) (fun n => wr (ix3 o n 0)) (fun n => wr (ix3 o n 1)) (fun n => wr (ix3 o n 2))
    (fun n => wr (ix3 o n 3))

/-- Column `4 o + 1`. -/
theorem col1 (xr : Cert.KernelIdeal.S262144x128.Idx → ℝ) (wr : Cert.KernelIdeal.S32x32x4.Idx → ℝ) (br : Cert.KernelIdeal.S128.Idx → ℝ) (b : Fin 262144) (o : Fin 32) :
    R (fun i => ((xr i : ℝ) : EReal)) (wbig (fun i => ((wr i : ℝ) : EReal))) (biasRow (fun i => ((br i : ℝ) : EReal))) (ix2 b (q4 o 1))
      = val_main_v53 (F := Ideal) (fun i => ((xr i : ℝ) : EReal)) (fun i => ((wr i : ℝ) : EReal)) (fun i => ((br i : ℝ) : EReal)) (ix2 b (q4 o 1)) := by
  rw [ref_at1]
  show (∑ k : Fin 128, (fun i => ((xr i : ℝ) : EReal)) (ix2 b k) * wbig (fun i => ((wr i : ℝ) : EReal)) (ix2 k (q4 o 1)))
      + biasRow (fun i => ((br i : ℝ) : EReal)) (ix2 (0 : Fin 1) (q4 o 1)) = _
  rw [sum_q4, biasRow_apply]
  simp only [Fin.sum_univ_four, wbig_01, wbig_11, wbig_21, wbig_31]
  unfold D
  refine congrArg (fun z : EReal => z + _) ?_
  exact comp_i (fun n => xr (ix2 b (q4 n 0))) (fun n => xr (ix2 b (q4 n 1))) (fun n => xr (ix2 b (q4 n 2)))
    (fun n => xr (ix2 b (q4 n 3))) (fun n => wr (ix3 o n 0)) (fun n => wr (ix3 o n 1)) (fun n => wr (ix3 o n 2))
    (fun n => wr (ix3 o n 3))

/-- Column `4 o + 2`. -/
theorem col2 (xr : Cert.KernelIdeal.S262144x128.Idx → ℝ) (wr : Cert.KernelIdeal.S32x32x4.Idx → ℝ) (br : Cert.KernelIdeal.S128.Idx → ℝ) (b : Fin 262144) (o : Fin 32) :
    R (fun i => ((xr i : ℝ) : EReal)) (wbig (fun i => ((wr i : ℝ) : EReal))) (biasRow (fun i => ((br i : ℝ) : EReal))) (ix2 b (q4 o 2))
      = val_main_v53 (F := Ideal) (fun i => ((xr i : ℝ) : EReal)) (fun i => ((wr i : ℝ) : EReal)) (fun i => ((br i : ℝ) : EReal)) (ix2 b (q4 o 2)) := by
  rw [ref_at2]
  show (∑ k : Fin 128, (fun i => ((xr i : ℝ) : EReal)) (ix2 b k) * wbig (fun i => ((wr i : ℝ) : EReal)) (ix2 k (q4 o 2)))
      + biasRow (fun i => ((br i : ℝ) : EReal)) (ix2 (0 : Fin 1) (q4 o 2)) = _
  rw [sum_q4, biasRow_apply]
  simp only [Fin.sum_univ_four, wbig_02, wbig_12, wbig_22, wbig_32]
  unfold D
  refine congrArg (fun z : EReal => z + _) ?_
  exact comp_j (fun n => xr (ix2 b (q4 n 0))) (fun n => xr (ix2 b (q4 n 1))) (fun n => xr (ix2 b (q4 n 2)))
    (fun n => xr (ix2 b (q4 n 3))) (fun n => wr (ix3 o n 0)) (fun n => wr (ix3 o n 1)) (fun n => wr (ix3 o n 2))
    (fun n => wr (ix3 o n 3))

/-- Column `4 o + 3`. -/
theorem col3 (xr : Cert.KernelIdeal.S262144x128.Idx → ℝ) (wr : Cert.KernelIdeal.S32x32x4.Idx → ℝ) (br : Cert.KernelIdeal.S128.Idx → ℝ) (b : Fin 262144) (o : Fin 32) :
    R (fun i => ((xr i : ℝ) : EReal)) (wbig (fun i => ((wr i : ℝ) : EReal))) (biasRow (fun i => ((br i : ℝ) : EReal))) (ix2 b (q4 o 3))
      = val_main_v53 (F := Ideal) (fun i => ((xr i : ℝ) : EReal)) (fun i => ((wr i : ℝ) : EReal)) (fun i => ((br i : ℝ) : EReal)) (ix2 b (q4 o 3)) := by
  rw [ref_at3]
  show (∑ k : Fin 128, (fun i => ((xr i : ℝ) : EReal)) (ix2 b k) * wbig (fun i => ((wr i : ℝ) : EReal)) (ix2 k (q4 o 3)))
      + biasRow (fun i => ((br i : ℝ) : EReal)) (ix2 (0 : Fin 1) (q4 o 3)) = _
  rw [sum_q4, biasRow_apply]
  simp only [Fin.sum_univ_four, wbig_03, wbig_13, wbig_23, wbig_33]
  unfold D
  refine congrArg (fun z : EReal => z + _) ?_
  exact comp_k (fun n => xr (ix2 b (q4 n 0))) (fun n => xr (ix2 b (q4 n 1))) (fun n => xr (ix2 b (q4 n 2)))
    (fun n => xr (ix2 b (q4 n 3))) (fun n => wr (ix3 o n 0)) (fun n => wr (ix3 o n 1)) (fun n => wr (ix3 o n 2))
    (fun n => wr (ix3 o n 3))

/-- The two arrays are equal when all three arguments hold real numbers. -/
theorem result_eq (x : FVec Ideal Cert.KernelIdeal.S262144x128 .f32) (w : FVec Ideal Cert.KernelIdeal.S32x32x4 .f32)
    (bias : FVec Ideal Cert.KernelIdeal.S128 .f32)
    (hx : ∃ xr : Cert.KernelIdeal.S262144x128.Idx → ℝ, x = fun i => ((xr i : ℝ) : EReal))
    (hw : ∃ wr : Cert.KernelIdeal.S32x32x4.Idx → ℝ, w = fun i => ((wr i : ℝ) : EReal))
    (hb : ∃ br : Cert.KernelIdeal.S128.Idx → ℝ, bias = fun i => ((br i : ℝ) : EReal)) :
    R x (wbig w) (biasRow bias) = val_main_v53 (F := Ideal) x w bias := by
  obtain ⟨xr, rfl⟩ := hx
  obtain ⟨wr, rfl⟩ := hw
  obtain ⟨br, rfl⟩ := hb
  funext i
  obtain ⟨b, j, rfl⟩ : ∃ (b : Fin 262144) (j : Fin 128), i = ix2 b j := ⟨i 0, i 1, eq_ix2 i⟩
  have hj : j.val < 128 := j.isLt
  obtain ⟨o, co, rfl⟩ : ∃ (o : Fin 32) (co : Fin 4), j = q4 o co :=
    ⟨⟨j.val / 4, by omega⟩, ⟨j.val % 4, by omega⟩, Fin.ext (by show j.val = 4 * (j.val / 4) + j.val % 4; omega)⟩
  match co with
  | ⟨0, _⟩ => exact col0 xr wr br b o
  | ⟨1, _⟩ => exact col1 xr wr br b o
  | ⟨2, _⟩ => exact col2 xr wr br b o
  | ⟨3, _⟩ => exact col3 xr wr br b o

end Cert.Bridge

end
-- ==== Proof.lean ====
/-
  The quaternion linear layer as one dense product against its four-sum reference.

  The kernel multiplies each row of `x` (128 numbers, read as 32 quaternions) by a 128 x 128 matrix built from the
  [32, 32, 4] weight array, and adds the bias; the reference splits the row into its four component planes, forms
  sixteen 32-term sums against the weight's component planes, and combines them by the quaternion product's signs.
  The matrix's entry (4 n + cin, 4 o + cout) is the signed weight component that multiplies input component `cin` in
  output component `cout`, so the kernel's 128-term sum, taken four terms at a time, is the reference's combination
  with the sum over `n` moved inside. Moving a sum across differences is a law of real numbers, not of the extended
  reals, and that is where the precondition is used: every input is finite, hence real.

  The three programs each run to the end, fault nowhere and leave their arguments unchanged: the two kernels by the
  launch of their one region after the forty-six operations that build the matrix, the reference as a straight
  line of whole-array operations. The idealization rewrote nothing, so its conjunct is `True`.
-/
import proofs.«119695_j2980707303755_1_alg».proof.Defs
import proofs.«119695_j2980707303755_1_alg».proof.Proof.Gen.Kernel
import proofs.«119695_j2980707303755_1_alg».proof.Proof.Gen.Kernel.Skeleton
import proofs.«119695_j2980707303755_1_alg».proof.Proof.Gen.Kernel.Launch
import proofs.«119695_j2980707303755_1_alg».proof.Proof.Gen.Kernel.Points
import proofs.«119695_j2980707303755_1_alg».proof.Proof.Gen.KernelIdeal
import proofs.«119695_j2980707303755_1_alg».proof.Proof.Gen.KernelIdeal.Skeleton
import proofs.«119695_j2980707303755_1_alg».proof.Proof.Gen.KernelIdeal.Launch
import proofs.«119695_j2980707303755_1_alg».proof.Proof.Gen.KernelIdeal.Points
import proofs.«119695_j2980707303755_1_alg».proof.Proof.Gen.ReferenceIdeal
import proofs.«119695_j2980707303755_1_alg».proof.Proof.Gen.Pre_finite_inputs
import proofs.«119695_j2980707303755_1_alg».proof.Proof.Gen.ReferenceIdeal.Run
import proofs.«119695_j2980707303755_1_alg».proof.Proof.Gen.ReferenceIdeal.Read
import proofs.«119695_j2980707303755_1_alg».proof.Proof.KernelLaunched
import proofs.«119695_j2980707303755_1_alg».proof.Proof.KernelIdealLaunched
import proofs.«119695_j2980707303755_1_alg».proof.Proof.KernelValue
import proofs.«119695_j2980707303755_1_alg».proof.Proof.FiniteInputs
import proofs.«119695_j2980707303755_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Launched.frame m ρ

theorem frame_ki : Cert.frame_KernelIdeal := fun m ρ _ => Cert.KernelIdeal.Launched.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array is `R` of them (its run) and the
    reference's is its last stage of them (its run); the precondition makes them real, and for real data the two
    arrays are one. -/
theorem algebraic : Cert.algebraic_KernelIdeal_ReferenceIdeal := by
  intro m ρ m' ρ' hpre hagree
  refine ⟨fun c => Cert.KernelIdeal.Whole.R (m ((c.tc : Thread Cert.KernelIdeal.nD Cert.KernelIdeal.τ).loc Cert.KernelIdeal.main_arg0))
      (Cert.KernelIdeal.Weights.wbig (m ((c.tc : Thread Cert.KernelIdeal.nD Cert.KernelIdeal.τ).loc Cert.KernelIdeal.main_arg1)))
      (Cert.KernelIdeal.Weights.biasRow (m ((c.tc : Thread Cert.KernelIdeal.nD Cert.KernelIdeal.τ).loc Cert.KernelIdeal.main_arg2))),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2]
  obtain ⟨hx, hw, hb⟩ := Cert.Pre_finite_inputs.Reals.reals_of_pre _ _ _ (hpre c)
  exact (Cert.Bridge.result_eq _ _ _ hx hw hb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
